-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x1 : Shape := ⟨2, ![1048576, 1]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S1048576x1 : S_.BroadcastsInDim S1048576x1 (![] : Fin 0 → Fin S1048576x1.rank)
  reducesTo_S1048576x1_S_d0_1 : S1048576x1.ReducesTo [0, 1] S_
  h_S_ : 0 < S_.numel
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S32x1 .f32) (main_arg8 : FVec F S1 .f32) (main_v33 : IVec S_ 1) : IVec S_ 1 :=
  let main_v34 : FVec F S32x1 .f32 := Host.absf main_arg7
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S32 .f32) (main_arg5 : FVec F S32x32 .f32) (main_arg6 : FVec F S32 .f32) (main_arg7 : FVec F S32x1 .f32) (main_arg8 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S1048576x1 .f32) (main_arg1 : FVec F S1x32 .f32) (main_arg2 : FVec F S32 .f32) (main_arg3 : FVec F S32x32 .f32) (main_arg4 : FVec F S32 .f32) (main_arg5 : FVec F S32x32 .f32) (main_arg6 : FVec F S32 .f32) (main_arg7 : FVec F S32x1 .f32) (main_arg8 : FVec F S1 .f32) : IVec S_ 1 :=
  let main_v0 : FVec F S1048576x1 .f32 := Host.absf main_arg0
  let main_cst : FVec F S_ .f32 := constant S_ .f32 0x7F800000#32
  let main_v1 : FVec F S1048576x1 .f32 := broadcastInDim S1048576x1 ![] bcast_S_S1048576x1 main_cst
  let main_v2 : IVec S1048576x1 1 := cmpf .olt main_v0 main_v1
  let main_c : IVec S_ 1 := constantI S_ 1 1#1
  let main_v3 : IVec S_ 1 := (fun x v => Host.reduce IntOp.andi x v reducesTo_S1048576x1_S_d0_1 h_S_) main_v2 main_c
  let main_v4 : FVec F S1x32 .f32 := Host.absf main_arg1
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  let main_c_1 : IVec S_ 1 := constantI S_ 1 1#1
  let main_v7 : IVec S_ 1 := (fun x v => Host.reduce IntOp.andi x v reducesTo_S1x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_arg6 main_arg7 main_arg8 main_v13 main_v16
-- ==== Kernel.lean ====
abbrev S1048576x1 : Shape := ⟨2, ![1048576, 1]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S8192x1 : Shape := ⟨2, ![8192, 1]⟩
abbrev S8192x32 : Shape := ⟨2, ![8192, 32]⟩
abbrev S1x1 : Shape := ⟨2, ![1, 1]⟩

abbrev nBuf : Space → Nat
  | .hbm => 16
  | .vmem => 16
  | .smem => 0
  | _ => 0

abbrev bufTy : (tb : Table) → Fin (tcTables nBuf tb) → BufTy
  | .hbm, ⟨0, _⟩ => ⟨S1048576x1, .f32⟩
  | .hbm, ⟨1, _⟩ => ⟨S1x32, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S1048576x1, .f32⟩
  | .hbm, ⟨10, _⟩ => ⟨S1048576x1, .f32⟩
  | .hbm, ⟨11, _⟩ => ⟨S1048576x1, .f32⟩
  | .hbm, ⟨12, _⟩ => ⟨S1x1, .f32⟩
  | .hbm, ⟨13, _⟩ => ⟨S1, .f32⟩
  | .hbm, ⟨14, _⟩ => ⟨S1x1, .f32⟩
  | .hbm, ⟨15, _⟩ => ⟨S1, .f32⟩
  | .local _ .vmem, ⟨0, _⟩ => ⟨S8192x1, .f32⟩
  | .local _ .vmem, ⟨1, _⟩ => ⟨S8192x1, .f32⟩
  | .local _ .vmem, ⟨2, _⟩ => ⟨S1x32, .f32⟩
  | .local _ .vmem, ⟨3, _⟩ => ⟨S32, .f32⟩
  | .local _ .vmem, ⟨4, _⟩ => ⟨S32x32, .f32⟩
  | .local _ .vmem, ⟨5, _⟩ => ⟨S32, .f32⟩
  | .local _ .vmem, ⟨6, _⟩ => ⟨S32x32, .f32⟩
  | .local _ .vmem, ⟨7, _⟩ => ⟨S32, .f32⟩
  | .local _ .vmem, ⟨8, _⟩ => ⟨S32x1, .f32⟩
  | .local _ .vmem, ⟨9, _⟩ => ⟨S1, .f32⟩
  | .local _ .vmem, ⟨10, _⟩ => ⟨S8192x1, .f32⟩
  | .local _ .vmem, ⟨11, _⟩ => ⟨S8192x1, .f32⟩
  | .local _ .vmem, ⟨12, _⟩ => ⟨S8192x1, .f32⟩
  | .local _ .vmem, ⟨13, _⟩ => ⟨S8192x1, .f32⟩
  | .local _ .vmem, ⟨14, _⟩ => ⟨S8192x1, .f32⟩
  | .local _ .vmem, ⟨15, _⟩ => ⟨S8192x1, .f32⟩
  | _, _ => ⟨S1048576x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8192x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8192x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8192x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  inb_S8192x1_S8192x1_0_0 : ∀ a, (![0, 0] : Fin 2 → Nat) a + S8192x1.size a ≤ S8192x1.size a
  h_S8192x1 : 0 < S8192x1.numel
  inb_S1x32_S1x32_0_0 : ∀ a, (![0, 0] : Fin 2 → Nat) a + S1x32.size a ≤ S1x32.size a
  h_S1x32 : 0 < S1x32.numel
  inb_S32_S32_0 : ∀ a, (![0] : Fin 1 → Nat) a + S32.size a ≤ S32.size a
  h_S32 : 0 < S32.numel
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  bitsLt_bf16_f32 : FTy.bits .bf16 < FTy.bits .f32
  broadcasts_S8192x1_S8192x32 : S8192x1.Broadcasts S8192x32
  broadcasts_S1x32_S8192x32 : S1x32.Broadcasts S8192x32
  shapeCasts_S32_S1x32 : S32.ShapeCasts S1x32
  shapeCasts_S1_S1x1 : S1.ShapeCasts S1x1
  broadcasts_S1x1_S8192x1 : S1x1.Broadcasts S8192x1
  slices_S1048576x1_S1x1_0_0 : S1048576x1.Slices ![0, 0] S1x1
  shapeCasts_S1x1_S1 : S1x1.ShapeCasts S1
  dot_S8192x32_S32x32_S8192x32_1_0_0_1_n_n_wf : DotDims.WF S8192x32 S32x32 S8192x32 [1] [0] [0] [1] [] []
  dot_S8192x32_S32x1_S8192x1_1_0_0_1_n_n_wf : DotDims.WF S8192x32 S32x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S1048576x1.size a
  hwx0_0 : ∀ i : grid0.Coords, EltTy.bits .f32 = 32 ∨ (Rect.block (s := S1048576x1) S8192x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32.size a ≤ S1x32.size a
  hwx0_1 : ∀ i : grid0.Coords, EltTy.bits .f32 = 32 ∨ (Rect.block (s := S1x32) S1x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .f32 = 32 ∨ (Rect.block (s := S32x1) S32x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192x1.size a ≤ S1048576x1.size a
  hwx0_9 : ∀ i : grid0.Coords, EltTy.bits .f32 = 32 ∨ (Rect.block (s := S1048576x1) S8192x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8192x1.size a ≤ S1048576x1.size a
  hwx0_10 : ∀ i : grid0.Coords, EltTy.bits .f32 = 32 ∨ (Rect.block (s := S1048576x1) S8192x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8192x1.size a ≤ S1048576x1.size a
  hwx0_11 : ∀ i : grid0.Coords, EltTy.bits .f32 = 32 ∨ (Rect.block (s := S1048576x1) S8192x1.size (cc0_transform_11 i) (hinb0_11 i)).WholeWords (EltTy.packing .f32)

variable [Facts₀]

def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x32_S32x1_S8192x1_1_0_0_1_n_n : DotDims S8192x32 S32x1 S8192x1 where
  lhsContracting := [1]
  rhsContracting := [0]
  lhsNonContracting := [0]
  rhsNonContracting := [1]
  lhsBatch := []
  rhsBatch := []
  wf := dot_S8192x32_S32x1_S8192x1_1_0_0_1_n_n_wf

abbrev win0_0 : Pipeline.Window sig grid0 :=
  Pipeline.Window.ofSpec (Memref.whole main_arg0) S8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S8192x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S8192x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_2) S8192x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1048576x1 : Shape := ⟨2, ![1048576, 1]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩
abbrev S1048576x32 : Shape := ⟨2, ![1048576, 32]⟩
abbrev S1x1 : Shape := ⟨2, ![1, 1]⟩

abbrev nBuf : Space → Nat
  | .hbm => 102
  | .vmem => 0
  | .smem => 0
  | _ => 0

abbrev bufTy : (tb : Table) → Fin (tcTables nBuf tb) → BufTy
  | .hbm, ⟨0, _⟩ => ⟨S1048576x1, .f32⟩
  | .hbm, ⟨1, _⟩ => ⟨S1x32, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S_, .f32⟩
  | .hbm, ⟨10, _⟩ => ⟨S1048576x1, .f32⟩
  | .hbm, ⟨11, _⟩ => ⟨S1048576x32, .f32⟩
  | .hbm, ⟨12, _⟩ => ⟨S1048576x32, .f32⟩
  | .hbm, ⟨13, _⟩ => ⟨S1048576x32, .f32⟩
  | .hbm, ⟨14, _⟩ => ⟨S1x32, .f32⟩
  | .hbm, ⟨15, _⟩ => ⟨S1048576x32, .f32⟩
  | .hbm, ⟨16, _⟩ => ⟨S1048576x32, .f32⟩
  | .hbm, ⟨17, _⟩ => ⟨S1048576x32, .f32⟩
  | .hbm, ⟨18, _⟩ => ⟨S1048576x32, .f32⟩
  | .hbm, ⟨19, _⟩ => ⟨S1048576x32, .f32⟩
  | .hbm, ⟨20, _⟩ => ⟨S_, .f32⟩
  | .hbm, ⟨21, _⟩ => ⟨S1048576x32, .f32⟩
  | .hbm, ⟨22, _⟩ => ⟨S1048576x32, .f32⟩
  | .hbm, ⟨23, _⟩ => ⟨S1048576x32, .f32⟩
  | .hbm, ⟨24, _⟩ => ⟨S1048576x32, .f32⟩
  | .hbm, ⟨25, _⟩ => ⟨S1048576x32, .f32⟩
  | .hbm, ⟨26, _⟩ => ⟨S1048576x32, .f32⟩
  | .hbm, ⟨27, _⟩ => ⟨S_, .f32⟩
  | .hbm, ⟨28, _⟩ => ⟨S1048576x32, .f32⟩
  | .hbm, ⟨29, _⟩ => ⟨S1048576x32, .f32⟩
  | .hbm, ⟨30, _⟩ => ⟨S1048576x32, .f32⟩
  | .hbm, ⟨31, _⟩ => ⟨S1048576x32, .f32⟩
  | .hbm, ⟨32, _⟩ => ⟨S1048576x32, .f32⟩
  | .hbm, ⟨33, _⟩ => ⟨S1048576x32, .f32⟩
  | .hbm, ⟨34, _⟩ => ⟨S1048576x32, .f32⟩
  | .hbm, ⟨35, _⟩ => ⟨S1048576x32, .f32⟩
  | .hbm, ⟨36, _⟩ => ⟨S1048576x32, .f32⟩
  | .hbm, ⟨37, _⟩ => ⟨S1048576x32, .f32⟩
  | .hbm, ⟨38, _⟩ => ⟨S1048576x32, .f32⟩
  | .hbm, ⟨39, _⟩ => ⟨S1x32, .f32⟩
  | .hbm, ⟨40, _⟩ => ⟨S1048576x32, .f32⟩
  | .hbm, ⟨41, _⟩ => ⟨S1048576x32, .f32⟩
  | .hbm, ⟨42, _⟩ => ⟨S1048576x32, .f32⟩
  | .hbm, ⟨43, _⟩ => ⟨S1048576x32, .f32⟩
  | .hbm, ⟨44, _⟩ => ⟨S1048576x32, .f32⟩
  | .hbm, ⟨45, _⟩ => ⟨S_, .f32⟩
  | .hbm, ⟨46, _⟩ => ⟨S1048576x32, .f32⟩
  | .hbm, ⟨47, _⟩ => ⟨S1048576x32, .f32⟩
  | .hbm, ⟨48, _⟩ => ⟨S1048576x32, .f32⟩
  | .hbm, ⟨49, _⟩ => ⟨S1048576x32, .f32⟩
  | .hbm, ⟨50, _⟩ => ⟨S1048576x32, .f32⟩
  | .hbm, ⟨51, _⟩ => ⟨S1048576x32, .f32⟩
  | .hbm, ⟨52, _⟩ => ⟨S1048576x32, .f32⟩
  | .hbm, ⟨53, _⟩ => ⟨S1048576x32, .f32⟩
  | .hbm, ⟨54, _⟩ => ⟨S1048576x32, .f32⟩
  | .hbm, ⟨55, _⟩ => ⟨S_, .f32⟩
  | .hbm, ⟨56, _⟩ => ⟨S1048576x32, .f32⟩
  | .hbm, ⟨57, _⟩ => ⟨S1048576x32, .f32⟩
  | .hbm, ⟨58, _⟩ => ⟨S1048576x32, .f32⟩
  | .hbm, ⟨59, _⟩ => ⟨S1048576x32, .f32⟩
  | .hbm, ⟨60, _⟩ => ⟨S1048576x32, .f32⟩
  | .hbm, ⟨61, _⟩ => ⟨S1048576x32, .f32⟩
  | .hbm, ⟨62, _⟩ => ⟨S1048576x32, .f32⟩
  | .hbm, ⟨63, _⟩ => ⟨S1048576x32, .f32⟩
  | .hbm, ⟨64, _⟩ => ⟨S1048576x32, .f32⟩
  | .hbm, ⟨65, _⟩ => ⟨S1048576x32, .f32⟩
  | .hbm, ⟨66, _⟩ => ⟨S1048576x32, .f32⟩
  | .hbm, ⟨67, _⟩ => ⟨S1x32, .f32⟩
  | .hbm, ⟨68, _⟩ => ⟨S1048576x32, .f32⟩
  | .hbm, ⟨69, _⟩ => ⟨S1048576x32, .f32⟩
  | .hbm, ⟨70, _⟩ => ⟨S1048576x32, .f32⟩
  | .hbm, ⟨71, _⟩ => ⟨S1048576x32, .f32⟩
  | .hbm, ⟨72, _⟩ => ⟨S1048576x32, .f32⟩
  | .hbm, ⟨73, _⟩ => ⟨S_, .f32⟩
  | .hbm, ⟨74, _⟩ => ⟨S1048576x32, .f32⟩
  | .hbm, ⟨75, _⟩ => ⟨S1048576x32, .f32⟩
  | .hbm, ⟨76, _⟩ => ⟨S1048576x32, .f32⟩
  | .hbm, ⟨77, _⟩ => ⟨S1048576x32, .f32⟩
  | .hbm, ⟨78, _⟩ => ⟨S1048576x32, .f32⟩
  | .hbm, ⟨79, _⟩ => ⟨S1048576x32, .f32⟩
  | .hbm, ⟨80, _⟩ => ⟨S1048576x32, .f32⟩
  | .hbm, ⟨81, _⟩ => ⟨S1048576x32, .f32⟩
  | .hbm, ⟨82, _⟩ => ⟨S1048576x32, .f32⟩
  | .hbm, ⟨83, _⟩ => ⟨S_, .f32⟩
  | .hbm, ⟨84, _⟩ => ⟨S1048576x32, .f32⟩
  | .hbm, ⟨85, _⟩ => ⟨S1048576x32, .f32⟩
  | .hbm, ⟨86, _⟩ => ⟨S1048576x32, .f32⟩
  | .hbm, ⟨87, _⟩ => ⟨S1048576x32, .f32⟩
  | .hbm, ⟨88, _⟩ => ⟨S1048576x32, .f32⟩
  | .hbm, ⟨89, _⟩ => ⟨S1048576x32, .f32⟩
  | .hbm, ⟨90, _⟩ => ⟨S1048576x32, .f32⟩
  | .hbm, ⟨91, _⟩ => ⟨S1048576x1, .f32⟩
  | .hbm, ⟨92, _⟩ => ⟨S1048576x1, .f32⟩
  | .hbm, ⟨93, _⟩ => ⟨S1048576x1, .f32⟩
  | .hbm, ⟨94, _⟩ => ⟨S1048576x1, .f32⟩
  | .hbm, ⟨95, _⟩ => ⟨S1x1, .f32⟩
  | .hbm, ⟨96, _⟩ => ⟨S1048576x1, .f32⟩
  | .hbm, ⟨97, _⟩ => ⟨S1048576x1, .f32⟩
  | .hbm, ⟨98, _⟩ => ⟨S1x1, .f32⟩
  | .hbm, ⟨99, _⟩ => ⟨S1, .f32⟩
  | .hbm, ⟨100, _⟩ => ⟨S1x1, .f32⟩
  | .hbm, ⟨101, _⟩ => ⟨S1, .f32⟩
  | _, _ => ⟨S1048576x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_4 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_5 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩

abbrev nD : Nat := 1
abbrev τ : Topo := Topo.v7x

variable {F : FTy → Type} [FloatOps F]

class Facts₀ : Prop where
  bcast_S_S1048576x1 : S_.BroadcastsInDim S1048576x1 (![] : Fin 0 → Fin S1048576x1.rank)
  bcast_S32_S1x32_1 : S32.BroadcastsInDim S1x32 (![1] : Fin 1 → Fin S1x32.rank)
  bcast_S1x32_S1048576x32_0_1 : S1x32.BroadcastsInDim S1048576x32 (![0, 1] : Fin 2 → Fin S1048576x32.rank)
  bcast_S_S1048576x32 : S_.BroadcastsInDim S1048576x32 (![] : Fin 0 → Fin S1048576x32.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  slices_S1048576x1_S1x1_0_0 : S1048576x1.Slices ![0, 0] S1x1
  shapeCasts_S1x1_S1 : S1x1.ShapeCasts S1
  dot_S1048576x1_S1x32_S1048576x32_1_0_0_1_n_n_wf : DotDims.WF S1048576x1 S1x32 S1048576x32 [1] [0] [0] [1] [] []
  dot_S1048576x32_S32x32_S1048576x32_1_0_0_1_n_n_wf : DotDims.WF S1048576x32 S32x32 S1048576x32 [1] [0] [0] [1] [] []
  dot_S1048576x32_S32x1_S1048576x1_1_0_0_1_n_n_wf : DotDims.WF S1048576x32 S32x1 S1048576x1 [1] [0] [0] [1] [] []

variable [Facts₀]

def dot_S1048576x1_S1x32_S1048576x32_1_0_0_1_n_n : DotDims S1048576x1 S1x32 S1048576x32 where
  lhsContracting := [1]
  rhsContracting := [0]
  lhsNonContracting := [0]
  rhsNonContracting := [1]
  lhsBatch := []
  rhsBatch := []
  wf := dot_S1048576x1_S1x32_S1048576x32_1_0_0_1_n_n_wf
def dot_S1048576x32_S32x32_S1048576x32_1_0_0_1_n_n : DotDims S1048576x32 S32x32 S1048576x32 where
  lhsContracting := [1]
  rhsContracting := [0]
  lhsNonContracting := [0]
  rhsNonContracting := [1]
  lhsBatch := []
  rhsBatch := []
  wf := dot_S1048576x32_S32x32_S1048576x32_1_0_0_1_n_n_wf
def dot_S1048576x32_S32x1_S1048576x1_1_0_0_1_n_n : DotDims S1048576x32 S32x1 S1048576x1 where
  lhsContracting := [1]
  rhsContracting := [0]
  lhsNonContracting := [0]
  rhsNonContracting := [1]
  lhsBatch := []
  rhsBatch := []
  wf := dot_S1048576x32_S32x1_S1048576x1_1_0_0_1_n_n_wf

class Facts : Prop extends Facts₀ where

variable [Facts]
-- ==== Proof.FiniteArgs.lean ====
/-
  Finiteness of the nine argument arrays, read out of the precondition.
  The precondition is the conjunction, over the nine arrays, of "every element x has |x| < +∞", where |x| is
  max x (-x) on the extended reals, the comparison is the strict order, and the conjunction over an array is a
  fold by "and" from 1. If the whole is 1 then each of the nine folds is 1, so each element comparison is 1, and
  an extended real x with max x (-x) < ⊤ is neither ⊤ (then max x (-x) = ⊤) nor ⊥ (then -x = ⊤): it is a real.
-/
import proofs.«150447_j79370995630372_2_alg».proof.Pre_finite_inputs
import Idealize.ShloMosaic.PureOps.Ideal
import Idealize.ShloMosaic.Lib.ReduceAll
import Idealize.ShloMosaic.Lib.ValueIdx

noncomputable section

namespace Cert.FiniteArgs

open Cert.Pre_finite_inputs
open Idealize.ShloMosaic Idealize.ShloMosaic.TcCoe Idealize.SL.Sem

/-- The rank-0 shape has exactly one index (the empty tuple). -/
instance : Subsingleton S_.Idx := ⟨fun a b => funext fun d => d.elim0⟩

/-- An extended real whose absolute value max x (-x) is strictly below +∞ is a real number:
    at ⊤ the maximum is ⊤, at ⊥ the negation is ⊤, and ⊤ < ⊤ is false. The pattern 0x7F800000 denotes ⊤. -/
theorem real_of_abs_lt_top (x : EReal)
    (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

/-- "Every element has |x| < +∞", folded by "and" over all axes of an array of any shape, being 1 says that
    every element of the array is a real number: a fold by "and" that is 1 met only 1s. -/
theorem all_real {s : Shape} {axes : List (Fin s.rank)}
    (hb : S_.BroadcastsInDim s (![] : Fin 0 → Fin s.rank)) (hr : s.ReducesTo axes S_) (hu : 0 < S_.numel)
    (x : FVec Ideal s .f32)
    (e : Host.reduce IntOp.andi
          (cmpf .olt (Host.absf (F := Ideal) x) (broadcastInDim s ![] hb (constant (F := Ideal) S_ .f32 0x7F800000#32)))
          (constantI S_ 1 1#1) hr hu ValueIdx.ix0 = 1#1) :
    ∀ i, ∃ r : ℝ, x i = (r : EReal) := fun i =>
  real_of_abs_lt_top (x i) (Host.reduce_andi_all _ _ hr hu _ e i)

/-- The precondition gives finiteness of all nine arrays: a nine-fold "and" that is 1 has every conjunct 1,
    and each conjunct is `all_real`'s hypothesis at that array's shape. -/
theorem of_pre [Cert.Pre_finite_inputs.Facts]
    (x0 : FVec Ideal S1048576x1 .f32) (x1 : FVec Ideal S1x32 .f32) (x2 : FVec Ideal S32 .f32)
    (x3 : FVec Ideal S32x32 .f32) (x4 : FVec Ideal S32 .f32) (x5 : FVec Ideal S32x32 .f32)
    (x6 : FVec Ideal S32 .f32) (x7 : FVec Ideal S32x1 .f32) (x8 : FVec Ideal S1 .f32)
    (h : Cert.Pre_finite_inputs.fn (F := Ideal) x0 x1 x2 x3 x4 x5 x6 x7 x8 = fun _ => 1#1) :
    (∀ i, ∃ r : ℝ, x0 i = (r : EReal)) ∧ (∀ i, ∃ r : ℝ, x1 i = (r : EReal)) ∧ (∀ i, ∃ r : ℝ, x2 i = (r : EReal))
    ∧ (∀ i, ∃ r : ℝ, x3 i = (r : EReal)) ∧ (∀ i, ∃ r : ℝ, x4 i = (r : EReal)) ∧ (∀ i, ∃ r : ℝ, x5 i = (r : EReal))
    ∧ (∀ i, ∃ r : ℝ, x6 i = (r : EReal)) ∧ (∀ i, ∃ r : ℝ, x7 i = (r : EReal)) ∧ (∀ i, ∃ r : ℝ, x8 i = (r : EReal)) := by
  have e := congrFun h ValueIdx.ix0
  dsimp only [Cert.Pre_finite_inputs.fn, Cert.Pre_finite_inputs.fn_part1, Cert.Pre_finite_inputs.fn_part2, andi] at e
  simp only [IntOp.andi_eq_one] at e
  obtain ⟨⟨⟨⟨⟨⟨⟨⟨e0, e1⟩, e2⟩, e3⟩, e4⟩, e5⟩, e6⟩, e7⟩, e8⟩ := e
  exact ⟨all_real _ _ _ x0 e0, all_real _ _ _ x1 e1, all_real _ _ _ x2 e2, all_real _ _ _ x3 e3,
    all_real _ _ _ x4 e4, all_real _ _ _ x5 e5, all_real _ _ _ x6 e6, all_real _ _ _ x7 e7, all_real _ _ _ x8 e8⟩

end Cert.FiniteArgs

end
-- ==== Proof.Net.lean ====
/-
  The mathematics of the certificate, with no program in sight.

  The network is a four-layer perceptron with tanh activations, applied to one scalar input `x` per row:
    z₁ = x·w₁ + b₁,  h₁ = tanh z₁,   z₂ = h₁·W₂ + b₂,  h₂ = tanh z₂,   z₃ = h₂·W₃ + b₃,  h₃ = tanh z₃,   y = h₃·w₄ + b₄,
  and the two programs both return y, dy/dx and d²y/dx². Writing h for a layer's tanh output and dz, ddz for the first
  and second derivative of its pre-activation, the derivatives of the layer's output are
    dh  = (1 - h²)·dz,
    ddh = -2·h·(1 - h²)·dz² + (1 - h²)·ddz,
  and a linear layer passes each derivative through the same matrix. This file states that network over the REAL numbers
  (`Net.*`), and proves the two facts that join the programs:
   • the derivative rules the reference applies — tanh' spelt `(g + g·h)·(1 - h)`, and its derivative in turn spelt
     `(s + (s·h + q·a))·(1 - h) + (q + q·h)·(-a)` — are, on real numbers, the two formulas above; these are
     distributive laws, which hold on the reals and FAIL at the infinities of the extended reals, so they are stated
     for coercions of reals (`ref_first`, `ref_second₁`, `ref_second`);
   • a finite sum of coercions of reals is the coercion of the sum (`coe_sum`).
-/
import Idealize.ShloMosaic.PureOps.Ideal

noncomputable section

open scoped BigOperators

namespace Cert.Net

/-- The weights of the network, as real numbers. -/
structure Params where
  w1 : Fin 32 → ℝ
  b1 : Fin 32 → ℝ
  W2 : Fin 32 → Fin 32 → ℝ
  b2 : Fin 32 → ℝ
  W3 : Fin 32 → Fin 32 → ℝ
  b3 : Fin 32 → ℝ
  w4 : Fin 32 → ℝ
  b4 : ℝ

/-- First derivative of `tanh z` from `h = tanh z` and `dz`. -/
def dAct (h dz : ℝ) : ℝ := (1 - h * h) * dz

/-- Second derivative of `tanh z` from `h = tanh z`, `dz` and `ddz`. -/
def ddAct (h dz ddz : ℝ) : ℝ := -2 * h * (1 - h * h) * (dz * dz) + (1 - h * h) * ddz

/-- A linear layer without its bias: `(f · W) j = Σ k, f k · W k j`. -/
def lin (f : Fin 32 → ℝ) (W : Fin 32 → Fin 32 → ℝ) (j : Fin 32) : ℝ := ∑ k : Fin 32, f k * W k j

/-- The output layer without its bias: `f · w = Σ k, f k · w k`. -/
def out (f w : Fin 32 → ℝ) : ℝ := ∑ k : Fin 32, f k * w k

variable (P : Params) (x : ℝ)

/-! ### Layer 1: the pre-activation is affine in `x`, so its derivative is `w₁` and its second derivative `0`. -/
def h1 (j : Fin 32) : ℝ := Real.tanh (x * P.w1 j + P.b1 j)
def d1 (j : Fin 32) : ℝ := dAct (h1 P x j) (P.w1 j)
def e1 (j : Fin 32) : ℝ := -2 * h1 P x j * (1 - h1 P x j * h1 P x j) * (P.w1 j * P.w1 j)

/-! ### Layer 2 -/
def z2 (j : Fin 32) : ℝ := lin (h1 P x) P.W2 j + P.b2 j
def dz2 (j : Fin 32) : ℝ := lin (d1 P x) P.W2 j
def ddz2 (j : Fin 32) : ℝ := lin (e1 P x) P.W2 j
def h2 (j : Fin 32) : ℝ := Real.tanh (z2 P x j)
def d2 (j : Fin 32) : ℝ := dAct (h2 P x j) (dz2 P x j)
def e2 (j : Fin 32) : ℝ := ddAct (h2 P x j) (dz2 P x j) (ddz2 P x j)

/-! ### Layer 3 -/
def z3 (j : Fin 32) : ℝ := lin (h2 P x) P.W3 j + P.b3 j
def dz3 (j : Fin 32) : ℝ := lin (d2 P x) P.W3 j
def ddz3 (j : Fin 32) : ℝ := lin (e2 P x) P.W3 j
def h3 (j : Fin 32) : ℝ := Real.tanh (z3 P x j)
def d3 (j : Fin 32) : ℝ := dAct (h3 P x j) (dz3 P x j)
def e3 (j : Fin 32) : ℝ := ddAct (h3 P x j) (dz3 P x j) (ddz3 P x j)

/-! ### The output layer and the three results -/
def y : ℝ := out (h3 P x) P.w4 + P.b4
def dy : ℝ := out (d3 P x) P.w4
def ddy : ℝ := out (e3 P x) P.w4

/-! ## Sums of real numbers inside the extended reals -/

/-- A finite sum of real numbers, taken in the extended reals, is the real sum. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A sum of products of real numbers, taken in the extended reals, is the real sum of products: how a matrix
    product of real operands is read. -/
theorem lin_coe (F G : Fin 32 → EReal) (f w : Fin 32 → ℝ) (hF : ∀ k, F k = ((f k : ℝ) : EReal))
    (hG : ∀ k, G k = ((w k : ℝ) : EReal)) : ∑ k : Fin 32, F k * G k = ((∑ k : Fin 32, f k * w k : ℝ) : EReal) := by
  simp only [hF, hG, ← EReal.coe_mul]
  exact coe_sum _ _

/-! ## The reference's derivative rules, on real numbers -/

/-- tanh' as the reference spells it: `(g + g·h)·(1 - h) = (1 - h²)·g`. -/
theorem ref_first (g h : ℝ) :
    ((g : EReal) + (g : EReal) * (h : EReal)) * (((1 : ℝ) : EReal) - (h : EReal)) = ((dAct h g : ℝ) : EReal) := by
  simp only [← EReal.coe_mul, ← EReal.coe_add, ← EReal.coe_sub]
  exact congrArg _ (by unfold dAct; ring)

/-- The second derivative in the first layer, where the pre-activation's own second derivative is zero:
    with `a = (1 - h²)·g`,  `(g·a)·(1 - h) + (g + g·h)·(-a) = -2·h·(1 - h²)·g²`. -/
theorem ref_second₁ (g h : ℝ) :
    ((g : EReal) * ((dAct h g : ℝ) : EReal)) * (((1 : ℝ) : EReal) - (h : EReal))
        + ((g : EReal) + (g : EReal) * (h : EReal)) * (-((dAct h g : ℝ) : EReal))
      = ((-2 * h * (1 - h * h) * (g * g) : ℝ) : EReal) := by
  simp only [← EReal.coe_mul, ← EReal.coe_add, ← EReal.coe_sub, ← EReal.coe_neg]
  exact congrArg _ (by unfold dAct; ring)

/-- The second derivative in a later layer: with `a = (1 - h²)·q`,
    `(s + (s·h + q·a))·(1 - h) + (q + q·h)·(-a) = -2·h·(1 - h²)·q² + (1 - h²)·s`. -/
theorem ref_second (q s h : ℝ) :
    ((s : EReal) + ((s : EReal) * (h : EReal) + (q : EReal) * ((dAct h q : ℝ) : EReal))) * (((1 : ℝ) : EReal) - (h : EReal))
        + ((q : EReal) + (q : EReal) * (h : EReal)) * (-((dAct h q : ℝ) : EReal))
      = ((ddAct h q s : ℝ) : EReal) := by
  simp only [← EReal.coe_mul, ← EReal.coe_add, ← EReal.coe_sub, ← EReal.coe_neg]
  exact congrArg _ (by unfold ddAct dAct; ring)

end Cert.Net

end
-- ==== Proof.Consts.lean ====
/-
  The float literals the two programs spell, as the extended reals their bit patterns denote at the ideal
  instance: `1.0` (the kernel's and the reference's `1 - h` and `1 - h·h`) and `-2.0` (the kernel's second
  derivative of tanh). Both are exact binary values, so each denotes the real number it is written as.
-/
import Idealize.ShloMosaic.PureOps.Ideal

noncomputable section

namespace Cert.Consts

open Idealize.ShloMosaic

/-- The pattern of `1.0` denotes the real `1`. -/
theorem ofBits_one : Ideal.ofBits .f32 0x3F800000#32 = ((1 : ℝ) : EReal) := by
  simp [Ideal.ofBits, Ideal.ieee, -EReal.coe_mul]; norm_num

/-- The pattern of `-2.0` denotes the real `-2`. -/
theorem ofBits_neg_two : Ideal.ofBits .f32 0xC0000000#32 = ((-2 : ℝ) : EReal) := by
  simp [Ideal.ofBits, Ideal.ieee, -EReal.coe_mul]; norm_num

end Cert.Consts

end
-- ==== Proof.RefValue.lean ====
/-
  The reference, read against the real network.

  The reference computes the network's value and its first two derivatives in `x` by differentiating the program
  itself twice, each time along the all-ones tangent. What that produces, operation by operation, is: every
  pre-activation once (`z`), its first derivative TWICE (once for each of the two nested differentiations: the two
  are the same number), and its second derivative once; and at every tanh the derivative rule
  `tanh' = (g + g·h)·(1 - h)` applied to each tangent, and the derivative of that rule for the second derivative.
  Assuming every argument array holds real numbers (`Reads`), this file reads each of those stages at an index
  `(r, j)` — row `r`, feature `j` — as the coercion of the real network's corresponding quantity at the scalar
  `X r` (`Cert.Net`): the linear steps are sums of products of reals, tanh of a real is the real tanh, and the
  derivative rules are the distributive laws of `Cert.Net` (`ref_first`, `ref_second₁`, `ref_second`).
  The three results are then: row 0 of `y`, row 0 of `dy/dx`, and the whole column `d²y/dx²`.
-/
import proofs.«150447_j79370995630372_2_alg».proof.Proof.Gen.ReferenceIdeal.Read
import proofs.«150447_j79370995630372_2_alg».proof.Proof.Net
import proofs.«150447_j79370995630372_2_alg».proof.Proof.Consts

noncomputable section

namespace Cert.ReferenceIdeal.RefValue

open Cert.ReferenceIdeal Cert.ReferenceIdeal.Read Idealize.ShloMosaic Idealize.ShloMosaic.ValueIdx Cert.Net

/-- Two rank-2 (or rank-1) indices given coordinate by coordinate are equal when their coordinates are. -/
macro "idx_eq" : tactic => `(tactic| (funext a; match a with | ⟨0, _⟩ => rfl | ⟨1, _⟩ => rfl))

/-- The nine argument arrays hold real numbers: the input column is `X`, the weights are `P`. -/
structure Reads (x0 : (⟨S1048576x1, .f32⟩ : BufTy).Contents (Elt Ideal)) (x1 : (⟨S1x32, .f32⟩ : BufTy).Contents (Elt Ideal)) (x2 : (⟨S32, .f32⟩ : BufTy).Contents (Elt Ideal))
    (x3 : (⟨S32x32, .f32⟩ : BufTy).Contents (Elt Ideal)) (x4 : (⟨S32, .f32⟩ : BufTy).Contents (Elt Ideal)) (x5 : (⟨S32x32, .f32⟩ : BufTy).Contents (Elt Ideal))
    (x6 : (⟨S32, .f32⟩ : BufTy).Contents (Elt Ideal)) (x7 : (⟨S32x1, .f32⟩ : BufTy).Contents (Elt Ideal)) (x8 : (⟨S1, .f32⟩ : BufTy).Contents (Elt Ideal))
    (X : Fin 1048576 → ℝ) (P : Params) : Prop where
  h0 : ∀ r : Fin 1048576, x0 (ix2 r (0 : Fin 1)) = ((X r : ℝ) : EReal)
  h1 : ∀ j : Fin 32, x1 (ix2 (0 : Fin 1) j) = ((P.w1 j : ℝ) : EReal)
  h2 : ∀ j : Fin 32, x2 (ix1 j) = ((P.b1 j : ℝ) : EReal)
  h3 : ∀ k j : Fin 32, x3 (ix2 k j) = ((P.W2 k j : ℝ) : EReal)
  h4 : ∀ j : Fin 32, x4 (ix1 j) = ((P.b2 j : ℝ) : EReal)
  h5 : ∀ k j : Fin 32, x5 (ix2 k j) = ((P.W3 k j : ℝ) : EReal)
  h6 : ∀ j : Fin 32, x6 (ix1 j) = ((P.b3 j : ℝ) : EReal)
  h7 : ∀ k : Fin 32, x7 (ix2 k (0 : Fin 1)) = ((P.w4 k : ℝ) : EReal)
  h8 : x8 (ix1 (0 : Fin 1)) = ((P.b4 : ℝ) : EReal)

/-! ## The constant `1` of every `1 - h` -/

theorem c0 (i : S1048576x1.Idx) : val_main_v0 (F := Ideal) i = ((1 : ℝ) : EReal) := by
  rw [val_main_v0_apply, val_main_cst_apply, Ideal.ofBits_def, Cert.Consts.ofBits_one]

theorem c10 (i : S1048576x32.Idx) : val_main_v10 (F := Ideal) i = ((1 : ℝ) : EReal) := by
  rw [val_main_v10_apply, val_main_cst_0_apply, Ideal.ofBits_def, Cert.Consts.ofBits_one]

theorem c16 (i : S1048576x32.Idx) : val_main_v16 (F := Ideal) i = ((1 : ℝ) : EReal) := by
  rw [val_main_v16_apply, val_main_cst_1_apply, Ideal.ofBits_def, Cert.Consts.ofBits_one]

theorem c33 (i : S1048576x32.Idx) : val_main_v33 (F := Ideal) i = ((1 : ℝ) : EReal) := by
  rw [val_main_v33_apply, val_main_cst_2_apply, Ideal.ofBits_def, Cert.Consts.ofBits_one]

theorem c42 (i : S1048576x32.Idx) : val_main_v42 (F := Ideal) i = ((1 : ℝ) : EReal) := by
  rw [val_main_v42_apply, val_main_cst_3_apply, Ideal.ofBits_def, Cert.Consts.ofBits_one]

theorem c59 (i : S1048576x32.Idx) : val_main_v59 (F := Ideal) i = ((1 : ℝ) : EReal) := by
  rw [val_main_v59_apply, val_main_cst_4_apply, Ideal.ofBits_def, Cert.Consts.ofBits_one]

theorem c68 (i : S1048576x32.Idx) : val_main_v68 (F := Ideal) i = ((1 : ℝ) : EReal) := by
  rw [val_main_v68_apply, val_main_cst_5_apply, Ideal.ofBits_def, Cert.Consts.ofBits_one]

/-! ## The stages, layer by layer -/

section
variable {x0 : (⟨S1048576x1, .f32⟩ : BufTy).Contents (Elt Ideal)} {x1 : (⟨S1x32, .f32⟩ : BufTy).Contents (Elt Ideal)} {x2 : (⟨S32, .f32⟩ : BufTy).Contents (Elt Ideal)}
  {x3 : (⟨S32x32, .f32⟩ : BufTy).Contents (Elt Ideal)} {x4 : (⟨S32, .f32⟩ : BufTy).Contents (Elt Ideal)} {x5 : (⟨S32x32, .f32⟩ : BufTy).Contents (Elt Ideal)}
  {x6 : (⟨S32, .f32⟩ : BufTy).Contents (Elt Ideal)} {x7 : (⟨S32x1, .f32⟩ : BufTy).Contents (Elt Ideal)} {x8 : (⟨S1, .f32⟩ : BufTy).Contents (Elt Ideal)}
  {X : Fin 1048576 → ℝ} {P : Params}
variable (H : Reads x0 x1 x2 x3 x4 x5 x6 x7 x8 X P) (r : Fin 1048576) (j : Fin 32)
include H

/-- The first pre-activation without its bias: one product, the contraction having one term. -/
theorem v1 : val_main_v1 (F := Ideal) x0 x1 (ix2 r j) = ((X r * P.w1 j : ℝ) : EReal) := by
  rw [val_main_v1_apply, Fin.sum_univ_one]
  have el : lidx_main_v1 (ix2 r j) 0 = ix2 r 0 := by idx_eq
  have er : ridx_main_v1 (ix2 r j) 0 = ix2 0 j := by idx_eq
  rw [el, er, H.h0, H.h1, ← EReal.coe_mul]

/-- The derivative of the first pre-activation: the all-ones tangent times the first weights. -/
theorem v2 : val_main_v2 (F := Ideal) x1 (ix2 r j) = ((P.w1 j : ℝ) : EReal) := by
  rw [val_main_v2_apply, Fin.sum_univ_one, c0]
  have er : ridx_main_v2 (ix2 r j) 0 = ix2 0 j := by idx_eq
  rw [er, H.h1, EReal.coe_one, one_mul]

/-- The derivative of the first pre-activation: the all-ones tangent times the first weights. -/
theorem v3 : val_main_v3 (F := Ideal) x1 (ix2 r j) = ((P.w1 j : ℝ) : EReal) := by
  rw [val_main_v3_apply, Fin.sum_univ_one, c0]
  have er : ridx_main_v3 (ix2 r j) 0 = ix2 0 j := by idx_eq
  rw [er, H.h1, EReal.coe_one, one_mul]

/-- The first bias, broadcast along the rows. -/
theorem v5 : val_main_v5 (F := Ideal) x2 (ix2 r j) = ((P.b1 j : ℝ) : EReal) := by
  rw [val_main_v5_apply, val_main_v4_apply]
  have e : idx_main_v4 (idx_main_v5 (ix2 r j)) = ix1 j := by funext a; match a with | ⟨0, _⟩ => rfl
  rw [e, H.h2]

theorem v6 : val_main_v6 (F := Ideal) x0 x1 x2 (ix2 r j) = ((X r * P.w1 j + P.b1 j : ℝ) : EReal) := by
  rw [val_main_v6_apply, v1 H, v5 H, Ideal.addf_def, ← EReal.coe_add]

/-- A layer's output: tanh of a real pre-activation is the real tanh. -/
theorem v7 : val_main_v7 (F := Ideal) x0 x1 x2 (ix2 r j) = ((h1 P (X r) j : ℝ) : EReal) := by
  rw [val_main_v7_apply, v6 H, Ideal.hostUnary_tanh_def, Ideal.tanh_coe]
  rfl

/-- The first derivative of the first layer's output, by the first tangent. -/
theorem v12 : val_main_v12 (F := Ideal) x0 x1 x2 (ix2 r j) = ((d1 P (X r) j : ℝ) : EReal) := by
  simp only [val_main_v12_apply, val_main_v9_apply, val_main_v8_apply, val_main_v11_apply, Ideal.mulf_def, Ideal.addf_def, Ideal.subf_def, Ideal.hostNegf_def, Ideal.negf_def, v2 H r j, v7 H r j, c10]
  exact ref_first _ _

/-- The same derivative by the second tangent: the same real number. -/
theorem v19 : val_main_v19 (F := Ideal) x0 x1 x2 (ix2 r j) = ((d1 P (X r) j : ℝ) : EReal) := by
  simp only [val_main_v19_apply, val_main_v15_apply, val_main_v13_apply, val_main_v17_apply, Ideal.mulf_def, Ideal.addf_def, Ideal.subf_def, Ideal.hostNegf_def, Ideal.negf_def, v3 H r j, v7 H r j, c16]
  exact ref_first _ _

/-- The second derivative of the first layer's output. -/
theorem v22 : val_main_v22 (F := Ideal) x0 x1 x2 (ix2 r j) = ((e1 P (X r) j : ℝ) : EReal) := by
  simp only [val_main_v22_apply, val_main_v20_apply, val_main_v21_apply, val_main_v14_apply, val_main_v15_apply, val_main_v13_apply, val_main_v17_apply, val_main_v18_apply, Ideal.mulf_def, Ideal.addf_def, Ideal.subf_def, Ideal.hostNegf_def, Ideal.negf_def, v3 H r j, v12 H r j, v7 H r j, c16]
  exact ref_second₁ _ _

/-- Layer 2: the pre-activation without its bias. -/
theorem v23 : val_main_v23 (F := Ideal) x0 x1 x2 x3 (ix2 r j) = ((lin (h1 P (X r)) P.W2 j : ℝ) : EReal) := by
  rw [val_main_v23_apply]
  have el : ∀ k, lidx_main_v23 (ix2 r j) k = ix2 r k := fun k => by idx_eq
  have er : ∀ k, ridx_main_v23 (ix2 r j) k = ix2 k j := fun k => by idx_eq
  simp only [el, er]
  exact lin_coe _ _ _ _ (fun k => v7 H r k) (fun k => H.h3 k j)

/-- Layer 2: the pre-activation's first derivative, by the first tangent. -/
theorem v24 : val_main_v24 (F := Ideal) x0 x1 x2 x3 (ix2 r j) = ((lin (d1 P (X r)) P.W2 j : ℝ) : EReal) := by
  rw [val_main_v24_apply]
  have el : ∀ k, lidx_main_v24 (ix2 r j) k = ix2 r k := fun k => by idx_eq
  have er : ∀ k, ridx_main_v24 (ix2 r j) k = ix2 k j := fun k => by idx_eq
  simp only [el, er]
  exact lin_coe _ _ _ _ (fun k => v12 H r k) (fun k => H.h3 k j)

/-- Layer 2: the same by the second tangent. -/
theorem v25 : val_main_v25 (F := Ideal) x0 x1 x2 x3 (ix2 r j) = ((lin (d1 P (X r)) P.W2 j : ℝ) : EReal) := by
  rw [val_main_v25_apply]
  have el : ∀ k, lidx_main_v25 (ix2 r j) k = ix2 r k := fun k => by idx_eq
  have er : ∀ k, ridx_main_v25 (ix2 r j) k = ix2 k j := fun k => by idx_eq
  simp only [el, er]
  exact lin_coe _ _ _ _ (fun k => v19 H r k) (fun k => H.h3 k j)

/-- Layer 2: the pre-activation's second derivative. -/
theorem v26 : val_main_v26 (F := Ideal) x0 x1 x2 x3 (ix2 r j) = ((lin (e1 P (X r)) P.W2 j : ℝ) : EReal) := by
  rw [val_main_v26_apply]
  have el : ∀ k, lidx_main_v26 (ix2 r j) k = ix2 r k := fun k => by idx_eq
  have er : ∀ k, ridx_main_v26 (ix2 r j) k = ix2 k j := fun k => by idx_eq
  simp only [el, er]
  exact lin_coe _ _ _ _ (fun k => v22 H r k) (fun k => H.h3 k j)

/-- Layer 2's bias, broadcast along the rows. -/
theorem v28 : val_main_v28 (F := Ideal) x4 (ix2 r j) = ((P.b2 j : ℝ) : EReal) := by
  rw [val_main_v28_apply, val_main_v27_apply]
  have e : idx_main_v27 (idx_main_v28 (ix2 r j)) = ix1 j := by funext a; match a with | ⟨0, _⟩ => rfl
  rw [e, H.h4]

theorem v29 : val_main_v29 (F := Ideal) x0 x1 x2 x3 x4 (ix2 r j) = ((z2 P (X r) j : ℝ) : EReal) := by
  rw [val_main_v29_apply, v23 H, v28 H, Ideal.addf_def, ← EReal.coe_add]
  rfl

/-- A layer's output: tanh of a real pre-activation is the real tanh. -/
theorem v30 : val_main_v30 (F := Ideal) x0 x1 x2 x3 x4 (ix2 r j) = ((h2 P (X r) j : ℝ) : EReal) := by
  rw [val_main_v30_apply, v29 H, Ideal.hostUnary_tanh_def, Ideal.tanh_coe]
  rfl

/-- Layer 2: the output's first derivative, by the first tangent. -/
theorem v35 : val_main_v35 (F := Ideal) x0 x1 x2 x3 x4 (ix2 r j) = ((d2 P (X r) j : ℝ) : EReal) := by
  simp only [val_main_v35_apply, val_main_v32_apply, val_main_v31_apply, val_main_v34_apply, Ideal.mulf_def, Ideal.addf_def, Ideal.subf_def, Ideal.hostNegf_def, Ideal.negf_def, v24 H r j, v30 H r j, c33]
  exact ref_first _ _

/-- Layer 2: the same by the second tangent. -/
theorem v45 : val_main_v45 (F := Ideal) x0 x1 x2 x3 x4 (ix2 r j) = ((d2 P (X r) j : ℝ) : EReal) := by
  simp only [val_main_v45_apply, val_main_v40_apply, val_main_v36_apply, val_main_v43_apply, Ideal.mulf_def, Ideal.addf_def, Ideal.subf_def, Ideal.hostNegf_def, Ideal.negf_def, v25 H r j, v30 H r j, c42]
  exact ref_first _ _

/-- Layer 2: the output's second derivative. -/
theorem v48 : val_main_v48 (F := Ideal) x0 x1 x2 x3 x4 (ix2 r j) = ((e2 P (X r) j : ℝ) : EReal) := by
  simp only [val_main_v48_apply, val_main_v46_apply, val_main_v47_apply, val_main_v41_apply, val_main_v39_apply, val_main_v37_apply, val_main_v38_apply, val_main_v40_apply, val_main_v36_apply, val_main_v43_apply, val_main_v44_apply, Ideal.mulf_def, Ideal.addf_def, Ideal.subf_def, Ideal.hostNegf_def, Ideal.negf_def, v25 H r j, v26 H r j, v35 H r j, v30 H r j, c42]
  exact ref_second _ _ _

/-- Layer 3: the pre-activation without its bias. -/
theorem v49 : val_main_v49 (F := Ideal) x0 x1 x2 x3 x4 x5 (ix2 r j) = ((lin (h2 P (X r)) P.W3 j : ℝ) : EReal) := by
  rw [val_main_v49_apply]
  have el : ∀ k, lidx_main_v49 (ix2 r j) k = ix2 r k := fun k => by idx_eq
  have er : ∀ k, ridx_main_v49 (ix2 r j) k = ix2 k j := fun k => by idx_eq
  simp only [el, er]
  exact lin_coe _ _ _ _ (fun k => v30 H r k) (fun k => H.h5 k j)

/-- Layer 3: the pre-activation's first derivative, by the first tangent. -/
theorem v50 : val_main_v50 (F := Ideal) x0 x1 x2 x3 x4 x5 (ix2 r j) = ((lin (d2 P (X r)) P.W3 j : ℝ) : EReal) := by
  rw [val_main_v50_apply]
  have el : ∀ k, lidx_main_v50 (ix2 r j) k = ix2 r k := fun k => by idx_eq
  have er : ∀ k, ridx_main_v50 (ix2 r j) k = ix2 k j := fun k => by idx_eq
  simp only [el, er]
  exact lin_coe _ _ _ _ (fun k => v35 H r k) (fun k => H.h5 k j)

/-- Layer 3: the same by the second tangent. -/
theorem v51 : val_main_v51 (F := Ideal) x0 x1 x2 x3 x4 x5 (ix2 r j) = ((lin (d2 P (X r)) P.W3 j : ℝ) : EReal) := by
  rw [val_main_v51_apply]
  have el : ∀ k, lidx_main_v51 (ix2 r j) k = ix2 r k := fun k => by idx_eq
  have er : ∀ k, ridx_main_v51 (ix2 r j) k = ix2 k j := fun k => by idx_eq
  simp only [el, er]
  exact lin_coe _ _ _ _ (fun k => v45 H r k) (fun k => H.h5 k j)

/-- Layer 3: the pre-activation's second derivative. -/
theorem v52 : val_main_v52 (F := Ideal) x0 x1 x2 x3 x4 x5 (ix2 r j) = ((lin (e2 P (X r)) P.W3 j : ℝ) : EReal) := by
  rw [val_main_v52_apply]
  have el : ∀ k, lidx_main_v52 (ix2 r j) k = ix2 r k := fun k => by idx_eq
  have er : ∀ k, ridx_main_v52 (ix2 r j) k = ix2 k j := fun k => by idx_eq
  simp only [el, er]
  exact lin_coe _ _ _ _ (fun k => v48 H r k) (fun k => H.h5 k j)

/-- Layer 3's bias, broadcast along the rows. -/
theorem v54 : val_main_v54 (F := Ideal) x6 (ix2 r j) = ((P.b3 j : ℝ) : EReal) := by
  rw [val_main_v54_apply, val_main_v53_apply]
  have e : idx_main_v53 (idx_main_v54 (ix2 r j)) = ix1 j := by funext a; match a with | ⟨0, _⟩ => rfl
  rw [e, H.h6]

theorem v55 : val_main_v55 (F := Ideal) x0 x1 x2 x3 x4 x5 x6 (ix2 r j) = ((z3 P (X r) j : ℝ) : EReal) := by
  rw [val_main_v55_apply, v49 H, v54 H, Ideal.addf_def, ← EReal.coe_add]
  rfl

/-- A layer's output: tanh of a real pre-activation is the real tanh. -/
theorem v56 : val_main_v56 (F := Ideal) x0 x1 x2 x3 x4 x5 x6 (ix2 r j) = ((h3 P (X r) j : ℝ) : EReal) := by
  rw [val_main_v56_apply, v55 H, Ideal.hostUnary_tanh_def, Ideal.tanh_coe]
  rfl

/-- Layer 3: the output's first derivative, by the first tangent. -/
theorem v61 : val_main_v61 (F := Ideal) x0 x1 x2 x3 x4 x5 x6 (ix2 r j) = ((d3 P (X r) j : ℝ) : EReal) := by
  simp only [val_main_v61_apply, val_main_v58_apply, val_main_v57_apply, val_main_v60_apply, Ideal.mulf_def, Ideal.addf_def, Ideal.subf_def, Ideal.hostNegf_def, Ideal.negf_def, v50 H r j, v56 H r j, c59]
  exact ref_first _ _

/-- Layer 3: the same by the second tangent. -/
theorem v71 : val_main_v71 (F := Ideal) x0 x1 x2 x3 x4 x5 x6 (ix2 r j) = ((d3 P (X r) j : ℝ) : EReal) := by
  simp only [val_main_v71_apply, val_main_v66_apply, val_main_v62_apply, val_main_v69_apply, Ideal.mulf_def, Ideal.addf_def, Ideal.subf_def, Ideal.hostNegf_def, Ideal.negf_def, v51 H r j, v56 H r j, c68]
  exact ref_first _ _

/-- Layer 3: the output's second derivative. -/
theorem v74 : val_main_v74 (F := Ideal) x0 x1 x2 x3 x4 x5 x6 (ix2 r j) = ((e3 P (X r) j : ℝ) : EReal) := by
  simp only [val_main_v74_apply, val_main_v72_apply, val_main_v73_apply, val_main_v67_apply, val_main_v65_apply, val_main_v63_apply, val_main_v64_apply, val_main_v66_apply, val_main_v62_apply, val_main_v69_apply, val_main_v70_apply, Ideal.mulf_def, Ideal.addf_def, Ideal.subf_def, Ideal.hostNegf_def, Ideal.negf_def, v51 H r j, v52 H r j, v61 H r j, v56 H r j, c68]
  exact ref_second _ _ _

/-- The output without its bias. -/
theorem v75 : val_main_v75 (F := Ideal) x0 x1 x2 x3 x4 x5 x6 x7 (ix2 r (0 : Fin 1)) = ((out (h3 P (X r)) P.w4 : ℝ) : EReal) := by
  rw [val_main_v75_apply]
  have el : ∀ k, lidx_main_v75 (ix2 r (0 : Fin 1)) k = ix2 r k := fun k => by idx_eq
  have er : ∀ k, ridx_main_v75 (ix2 r (0 : Fin 1)) k = ix2 k (0 : Fin 1) := fun k => by idx_eq
  simp only [el, er]
  exact lin_coe _ _ _ _ (fun k => v56 H r k) (fun k => H.h7 k)

/-- The output's first derivative. -/
theorem v77 : val_main_v77 (F := Ideal) x0 x1 x2 x3 x4 x5 x6 x7 (ix2 r (0 : Fin 1)) = ((out (d3 P (X r)) P.w4 : ℝ) : EReal) := by
  rw [val_main_v77_apply]
  have el : ∀ k, lidx_main_v77 (ix2 r (0 : Fin 1)) k = ix2 r k := fun k => by idx_eq
  have er : ∀ k, ridx_main_v77 (ix2 r (0 : Fin 1)) k = ix2 k (0 : Fin 1) := fun k => by idx_eq
  simp only [el, er]
  exact lin_coe _ _ _ _ (fun k => v71 H r k) (fun k => H.h7 k)

/-- The output's second derivative. -/
theorem v78 : val_main_v78 (F := Ideal) x0 x1 x2 x3 x4 x5 x6 x7 (ix2 r (0 : Fin 1)) = ((out (e3 P (X r)) P.w4 : ℝ) : EReal) := by
  rw [val_main_v78_apply]
  have el : ∀ k, lidx_main_v78 (ix2 r (0 : Fin 1)) k = ix2 r k := fun k => by idx_eq
  have er : ∀ k, ridx_main_v78 (ix2 r (0 : Fin 1)) k = ix2 k (0 : Fin 1) := fun k => by idx_eq
  simp only [el, er]
  exact lin_coe _ _ _ _ (fun k => v74 H r k) (fun k => H.h7 k)

/-- The output bias. -/
theorem v80 : val_main_v80 (F := Ideal) x8 (ix2 r (0 : Fin 1)) = ((P.b4 : ℝ) : EReal) := by
  rw [val_main_v80_apply, val_main_v79_apply]
  have e : idx_main_v79 (idx_main_v80 (ix2 r (0 : Fin 1))) = ix1 0 := by funext a; match a with | ⟨0, _⟩ => rfl
  rw [e, H.h8]

theorem v81 : val_main_v81 (F := Ideal) x0 x1 x2 x3 x4 x5 x6 x7 x8 (ix2 r (0 : Fin 1)) = ((y P (X r) : ℝ) : EReal) := by
  rw [val_main_v81_apply, v75 H, v80 H, Ideal.addf_def, ← EReal.coe_add]
  rfl

/-! ## The three results -/

/-- The first result: row 0 of the network's value. -/
theorem res83 : val_main_v83 (F := Ideal) x0 x1 x2 x3 x4 x5 x6 x7 x8 = fun _ => ((y P (X 0) : ℝ) : EReal) := by
  funext i
  rw [val_main_v83_apply, val_main_v82_apply]
  have e : idx_main_v82 (idx_main_v83 i) = ix2 (0 : Fin 1048576) (0 : Fin 1) := by idx_eq
  rw [e]
  exact v81 H 0

/-- The second result: row 0 of the first derivative. -/
theorem res85 : val_main_v85 (F := Ideal) x0 x1 x2 x3 x4 x5 x6 x7 = fun _ => ((dy P (X 0) : ℝ) : EReal) := by
  funext i
  rw [val_main_v85_apply, val_main_v84_apply]
  have e : idx_main_v84 (idx_main_v85 i) = ix2 (0 : Fin 1048576) (0 : Fin 1) := by idx_eq
  rw [e]
  exact v77 H 0

/-- The third result: the second derivative, row by row. -/
theorem res78 : val_main_v78 (F := Ideal) x0 x1 x2 x3 x4 x5 x6 x7 = fun i => ((ddy P (X (i 0)) : ℝ) : EReal) := by
  funext i
  obtain ⟨r, q, rfl⟩ : ∃ (r : Fin 1048576) (q : Fin 1), i = ix2 r q := ⟨i 0, i 1, eq_ix2 i⟩
  obtain rfl : q = 0 := Subsingleton.elim _ _
  exact v78 H r

end

end Cert.ReferenceIdeal.RefValue

end
-- ==== Proof.KernelRun.lean ====
/- The kernel program's run read from blocks to whole arrays and through the host operations
   that follow the region. The region writes three one-column arrays of 1048576 rows, each in 128 blocks of 8192 rows,
   point `t` writing rows `8192 t … 8192 t + 8191`; the program's results are row 0 of the first two, reshaped to a
   one-element vector, and the third whole. Here: where each window's block sits (`idx_facts`), the input blocks as reads
   of the argument arrays (`iblk0_*`, `iblk1` … `iblk8`), the cover of each result array by its blocks (`cover9` …),
   so the array after the region is the ONE function whose blocks the points wrote (`final9` …), the two host results
   as that function at row 0 (`tail_v2`, `tail_v4`), the run re-posted with those equations (`run`), and what each
   point writes back as the stored payload of the argument arrays and the first argument's block (`flushed9_pay` …). -/
import proofs.«150447_j79370995630372_2_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

namespace Cert.KernelIdeal.RunValue

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The index maps over the grid

The four row-blocked windows (the first argument and the three results) all sit, at point `t`, at block
index `(t, 0)`: rows `8192 t … 8192 t + 8191` of a one-column array. -/

theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-! ## The input blocks as reads of the argument arrays

The first argument moves with the results: its block at point `t` is the argument read at the rows where each
result's block at `t` sits. The other eight arguments are staged whole: their block at every point is the array. -/

/-- Where an element of a result's block at point `t` sits in the array: row `8192 t + (its row in the block)`. -/
theorem emb9_row (t : Fin cfg0.N) (y : S8192x1.Idx) :
    ((((cfg0.win 9).blk t).view.emb y : S1048576x1.Idx) 0).val = t.val * 8192 + (y 0).val := by
  obtain ⟨-, -, e0, -, -, -, -, -⟩ := idx_facts t
  show win0_9.index t (0 : Fin 2) * 8192 + 1 * (y 0).val = _
  omega

theorem emb10_row (t : Fin cfg0.N) (y : S8192x1.Idx) :
    ((((cfg0.win 10).blk t).view.emb y : S1048576x1.Idx) 0).val = t.val * 8192 + (y 0).val := by
  obtain ⟨-, -, -, -, e0, -, -, -⟩ := idx_facts t
  show win0_10.index t (0 : Fin 2) * 8192 + 1 * (y 0).val = _
  omega

theorem emb11_row (t : Fin cfg0.N) (y : S8192x1.Idx) :
    ((((cfg0.win 11).blk t).view.emb y : S1048576x1.Idx) 0).val = t.val * 8192 + (y 0).val := by
  obtain ⟨-, -, -, -, -, -, e0, -⟩ := idx_facts t
  show win0_11.index t (0 : Fin 2) * 8192 + 1 * (y 0).val = _
  omega

/-- The first argument's block and each result's block at a point sit at the same rows. -/
theorem emb0_eq_emb9 (t : Fin cfg0.N) (y : S8192x1.Idx) :
    (((cfg0.win 0).blk t).view.emb y : S1048576x1.Idx) = ((cfg0.win 9).blk t).view.emb y := by
  obtain ⟨a0, a1, e0, e1, -, -, -, -⟩ := idx_facts t
  funext a; apply Fin.ext
  match a with
  | ⟨0, _⟩ => show win0_0.index t (0 : Fin 2) * 8192 + 1 * (y 0).val = win0_9.index t (0 : Fin 2) * 8192 + 1 * (y 0).val; omega
  | ⟨1, _⟩ => show win0_0.index t (1 : Fin 2) * 1 + 1 * (y 1).val = win0_9.index t (1 : Fin 2) * 1 + 1 * (y 1).val; omega

theorem emb0_eq_emb10 (t : Fin cfg0.N) (y : S8192x1.Idx) :
    (((cfg0.win 0).blk t).view.emb y : S1048576x1.Idx) = ((cfg0.win 10).blk t).view.emb y := by
  obtain ⟨a0, a1, -, -, e0, e1, -, -⟩ := idx_facts t
  funext a; apply Fin.ext
  match a with
  | ⟨0, _⟩ => show win0_0.index t (0 : Fin 2) * 8192 + 1 * (y 0).val = win0_10.index t (0 : Fin 2) * 8192 + 1 * (y 0).val; omega
  | ⟨1, _⟩ => show win0_0.index t (1 : Fin 2) * 1 + 1 * (y 1).val = win0_10.index t (1 : Fin 2) * 1 + 1 * (y 1).val; omega

theorem emb0_eq_emb11 (t : Fin cfg0.N) (y : S8192x1.Idx) :
    (((cfg0.win 0).blk t).view.emb y : S1048576x1.Idx) = ((cfg0.win 11).blk t).view.emb y := by
  obtain ⟨a0, a1, -, -, -, -, e0, e1⟩ := idx_facts t
  funext a; apply Fin.ext
  match a with
  | ⟨0, _⟩ => show win0_0.index t (0 : Fin 2) * 8192 + 1 * (y 0).val = win0_11.index t (0 : Fin 2) * 8192 + 1 * (y 0).val; omega
  | ⟨1, _⟩ => show win0_0.index t (1 : Fin 2) * 1 + 1 * (y 1).val = win0_11.index t (1 : Fin 2) * 1 + 1 * (y 1).val; omega

/-- The first argument's block at point `t`, element by element: the argument where the first result's block sits. -/
theorem iblk0_apply9 (c : Dev nD) (t : Fin cfg0.N) (y : S8192x1.Idx) :
    (Gen.iblk m c 0 t : S8192x1.Idx → EReal) y
      = (m ((c.tc : Thread nD τ).loc main_arg0) : S1048576x1.Idx → EReal) (((cfg0.win 9).blk t).view.emb y) := by
  show (Gen.V m c main_arg0 : S1048576x1.Idx → EReal) (((cfg0.win 0).blk t).view.emb y) = _
  rw [emb0_eq_emb9, Gen.V_main_arg0]

theorem iblk0_apply10 (c : Dev nD) (t : Fin cfg0.N) (y : S8192x1.Idx) :
    (Gen.iblk m c 0 t : S8192x1.Idx → EReal) y
      = (m ((c.tc : Thread nD τ).loc main_arg0) : S1048576x1.Idx → EReal) (((cfg0.win 10).blk t).view.emb y) := by
  show (Gen.V m c main_arg0 : S1048576x1.Idx → EReal) (((cfg0.win 0).blk t).view.emb y) = _
  rw [emb0_eq_emb10, Gen.V_main_arg0]

theorem iblk0_apply11 (c : Dev nD) (t : Fin cfg0.N) (y : S8192x1.Idx) :
    (Gen.iblk m c 0 t : S8192x1.Idx → EReal) y
      = (m ((c.tc : Thread nD τ).loc main_arg0) : S1048576x1.Idx → EReal) (((cfg0.win 11).blk t).view.emb y) := by
  show (Gen.V m c main_arg0 : S1048576x1.Idx → EReal) (((cfg0.win 0).blk t).view.emb y) = _
  rw [emb0_eq_emb11, Gen.V_main_arg0]

/-- The same as whole blocks: the first argument read through each result's block. -/
theorem iblk0_eq_read9 (c : Dev nD) (t : Fin cfg0.N) :
    (Gen.iblk m c 0 t : S8192x1.Idx → EReal)
      = ((cfg0.win 9).blk t).view.read (Elt Ideal) (m ((c.tc : Thread nD τ).loc main_arg0) : S1048576x1.Idx → EReal) :=
  funext fun y => iblk0_apply9 m c t y

theorem iblk0_eq_read10 (c : Dev nD) (t : Fin cfg0.N) :
    (Gen.iblk m c 0 t : S8192x1.Idx → EReal)
      = ((cfg0.win 10).blk t).view.read (Elt Ideal) (m ((c.tc : Thread nD τ).loc main_arg0) : S1048576x1.Idx → EReal) :=
  funext fun y => iblk0_apply10 m c t y

theorem iblk0_eq_read11 (c : Dev nD) (t : Fin cfg0.N) :
    (Gen.iblk m c 0 t : S8192x1.Idx → EReal)
      = ((cfg0.win 11).blk t).view.read (Elt Ideal) (m ((c.tc : Thread nD τ).loc main_arg0) : S1048576x1.Idx → EReal) :=
  funext fun y => iblk0_apply11 m c t y

/-- The whole-array windows sit at block index zero at every point. -/
theorem idx_whole : ∀ t : Fin cfg0.N,
    win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

theorem iblk1 (c : Dev nD) (t : Fin cfg0.N) :
    (Gen.iblk m c 1 t : S1x32.Idx → EReal) = m ((c.tc : Thread nD τ).loc main_arg1) := by
  obtain ⟨e0, e1, -⟩ := idx_whole t
  funext y
  show (Gen.V m c main_arg1 : S1x32.Idx → EReal) (((cfg0.win 1).blk t).view.emb y) = _
  rw [Gen.V_main_arg1]
  congr 1
  funext a; apply Fin.ext
  match a with
  | ⟨0, _⟩ => show win0_1.index t (0 : Fin 2) * 1 + 1 * (y 0).val = (y 0).val; omega
  | ⟨1, _⟩ => show win0_1.index t (1 : Fin 2) * 32 + 1 * (y 1).val = (y 1).val; omega

theorem iblk2 (c : Dev nD) (t : Fin cfg0.N) :
    (Gen.iblk m c 2 t : S32.Idx → EReal) = m ((c.tc : Thread nD τ).loc main_arg2) := by
  obtain ⟨-, -, e0, -⟩ := idx_whole t
  funext y
  show (Gen.V m c main_arg2 : S32.Idx → EReal) (((cfg0.win 2).blk t).view.emb y) = _
  rw [Gen.V_main_arg2]
  congr 1
  funext a; apply Fin.ext
  match a with
  | ⟨0, _⟩ => show win0_2.index t (0 : Fin 1) * 32 + 1 * (y 0).val = (y 0).val; omega

theorem iblk3 (c : Dev nD) (t : Fin cfg0.N) :
    (Gen.iblk m c 3 t : S32x32.Idx → EReal) = m ((c.tc : Thread nD τ).loc main_arg3) := by
  obtain ⟨-, -, -, e0, e1, -⟩ := idx_whole t
  funext y
  show (Gen.V m c main_arg3 : S32x32.Idx → EReal) (((cfg0.win 3).blk t).view.emb y) = _
  rw [Gen.V_main_arg3]
  congr 1
  funext a; apply Fin.ext
  match a with
  | ⟨0, _⟩ => show win0_3.index t (0 : Fin 2) * 32 + 1 * (y 0).val = (y 0).val; omega
  | ⟨1, _⟩ => show win0_3.index t (1 : Fin 2) * 32 + 1 * (y 1).val = (y 1).val; omega

theorem iblk4 (c : Dev nD) (t : Fin cfg0.N) :
    (Gen.iblk m c 4 t : S32.Idx → EReal) = m ((c.tc : Thread nD τ).loc main_arg4) := by
  obtain ⟨-, -, -, -, -, e0, -⟩ := idx_whole t
  funext y
  show (Gen.V m c main_arg4 : S32.Idx → EReal) (((cfg0.win 4).blk t).view.emb y) = _
  rw [Gen.V_main_arg4]
  congr 1
  funext a; apply Fin.ext
  match a with
  | ⟨0, _⟩ => show win0_4.index t (0 : Fin 1) * 32 + 1 * (y 0).val = (y 0).val; omega

theorem iblk5 (c : Dev nD) (t : Fin cfg0.N) :
    (Gen.iblk m c 5 t : S32x32.Idx → EReal) = m ((c.tc : Thread nD τ).loc main_arg5) := by
  obtain ⟨-, -, -, -, -, -, e0, e1, -⟩ := idx_whole t
  funext y
  show (Gen.V m c main_arg5 : S32x32.Idx → EReal) (((cfg0.win 5).blk t).view.emb y) = _
  rw [Gen.V_main_arg5]
  congr 1
  funext a; apply Fin.ext
  match a with
  | ⟨0, _⟩ => show win0_5.index t (0 : Fin 2) * 32 + 1 * (y 0).val = (y 0).val; omega
  | ⟨1, _⟩ => show win0_5.index t (1 : Fin 2) * 32 + 1 * (y 1).val = (y 1).val; omega

theorem iblk6 (c : Dev nD) (t : Fin cfg0.N) :
    (Gen.iblk m c 6 t : S32.Idx → EReal) = m ((c.tc : Thread nD τ).loc main_arg6) := by
  obtain ⟨-, -, -, -, -, -, -, -, e0, -⟩ := idx_whole t
  funext y
  show (Gen.V m c main_arg6 : S32.Idx → EReal) (((cfg0.win 6).blk t).view.emb y) = _
  rw [Gen.V_main_arg6]
  congr 1
  funext a; apply Fin.ext
  match a with
  | ⟨0, _⟩ => show win0_6.index t (0 : Fin 1) * 32 + 1 * (y 0).val = (y 0).val; omega

theorem iblk7 (c : Dev nD) (t : Fin cfg0.N) :
    (Gen.iblk m c 7 t : S32x1.Idx → EReal) = m ((c.tc : Thread nD τ).loc main_arg7) := by
  obtain ⟨-, -, -, -, -, -, -, -, -, e0, e1, -⟩ := idx_whole t
  funext y
  show (Gen.V m c main_arg7 : S32x1.Idx → EReal) (((cfg0.win 7).blk t).view.emb y) = _
  rw [Gen.V_main_arg7]
  congr 1
  funext a; apply Fin.ext
  match a with
  | ⟨0, _⟩ => show win0_7.index t (0 : Fin 2) * 32 + 1 * (y 0).val = (y 0).val; omega
  | ⟨1, _⟩ => show win0_7.index t (1 : Fin 2) * 1 + 1 * (y 1).val = (y 1).val; omega

theorem iblk8 (c : Dev nD) (t : Fin cfg0.N) :
    (Gen.iblk m c 8 t : S1.Idx → EReal) = m ((c.tc : Thread nD τ).loc main_arg8) := by
  obtain ⟨-, -, -, -, -, -, -, -, -, -, -, e0⟩ := idx_whole t
  funext y
  show (Gen.V m c main_arg8 : S1.Idx → EReal) (((cfg0.win 8).blk t).view.emb y) = _
  rw [Gen.V_main_arg8]
  congr 1
  funext a; apply Fin.ext
  match a with
  | ⟨0, _⟩ => show win0_8.index t (0 : Fin 1) * 1 + 1 * (y 0).val = (y 0).val; omega

/-! ## The blocks of an output cover its array -/

/-- An index of the array is in point `t`'s block iff each coordinate is in the block's range on its axis. -/
theorem mem_blk9 (t : Fin cfg0.N) (i : S1048576x1.Idx) :
    i ∈ ((cfg0.win 9).blk t).view.set ↔ ∀ a : Fin 2, win0_9.index t a * S8192x1.size a ≤ (i a).val ∧ (i a).val < win0_9.index t a * S8192x1.size a + S8192x1.size a := by
  show i ∈ ((View.whole main_v0_0).slice (win0_9.rect t)).set ↔ _
  rw [View.set_slice_whole, Rect.mem_set_unit]
  exact Iff.rfl

theorem mem_blk10 (t : Fin cfg0.N) (i : S1048576x1.Idx) :
    i ∈ ((cfg0.win 10).blk t).view.set ↔ ∀ a : Fin 2, win0_10.index t a * S8192x1.size a ≤ (i a).val ∧ (i a).val < win0_10.index t a * S8192x1.size a + S8192x1.size a := by
  show i ∈ ((View.whole main_v0_1).slice (win0_10.rect t)).set ↔ _
  rw [View.set_slice_whole, Rect.mem_set_unit]
  exact Iff.rfl

theorem mem_blk11 (t : Fin cfg0.N) (i : S1048576x1.Idx) :
    i ∈ ((cfg0.win 11).blk t).view.set ↔ ∀ a : Fin 2, win0_11.index t a * S8192x1.size a ≤ (i a).val ∧ (i a).val < win0_11.index t a * S8192x1.size a + S8192x1.size a := by
  show i ∈ ((View.whole main_v0_2).slice (win0_11.rect t)).set ↔ _
  rw [View.set_slice_whole, Rect.mem_set_unit]
  exact Iff.rfl

/-- The point whose block holds row `r`: `r / 8192`. -/
theorem point_of_row (i : S1048576x1.Idx) : ∃ t : Fin cfg0.N, t.val = (i 0).val / 8192 := by
  have hi0 : (i 0).val < 1048576 := (i 0).isLt
  have hN : cfg0.N = 128 := N_0
  exact ⟨⟨(i 0).val / 8192, by rw [hN]; omega⟩, rfl⟩

/-- Every index of the first result's array is in some point's block, and every point writes its block back. -/
theorem cover9 (i : S1048576x1.Idx) :
    ∃ t : Fin cfg0.N, (cfg0.win 9).flush t = true ∧ i ∈ ((cfg0.win 9).blk t).view.set := by
  have hi0 : (i 0).val < 1048576 := (i 0).isLt
  have hi1 : (i 1).val < 1 := (i 1).isLt
  obtain ⟨t, ht⟩ := point_of_row i
  obtain ⟨-, -, e0, e1, -, -, -, -⟩ := idx_facts t
  refine ⟨t, flush0_9 t, ?_⟩
  rw [mem_blk9]
  intro a
  match a with
  | ⟨0, _⟩ => show win0_9.index t (0 : Fin 2) * 8192 ≤ (i 0).val ∧ (i 0).val < win0_9.index t (0 : Fin 2) * 8192 + 8192; omega
  | ⟨1, _⟩ => show win0_9.index t (1 : Fin 2) * 1 ≤ (i 1).val ∧ (i 1).val < win0_9.index t (1 : Fin 2) * 1 + 1; omega

theorem cover10 (i : S1048576x1.Idx) :
    ∃ t : Fin cfg0.N, (cfg0.win 10).flush t = true ∧ i ∈ ((cfg0.win 10).blk t).view.set := by
  have hi0 : (i 0).val < 1048576 := (i 0).isLt
  have hi1 : (i 1).val < 1 := (i 1).isLt
  obtain ⟨t, ht⟩ := point_of_row i
  obtain ⟨-, -, -, -, e0, e1, -, -⟩ := idx_facts t
  refine ⟨t, flush0_10 t, ?_⟩
  rw [mem_blk10]
  intro a
  match a with
  | ⟨0, _⟩ => show win0_10.index t (0 : Fin 2) * 8192 ≤ (i 0).val ∧ (i 0).val < win0_10.index t (0 : Fin 2) * 8192 + 8192; omega
  | ⟨1, _⟩ => show win0_10.index t (1 : Fin 2) * 1 ≤ (i 1).val ∧ (i 1).val < win0_10.index t (1 : Fin 2) * 1 + 1; omega

theorem cover11 (i : S1048576x1.Idx) :
    ∃ t : Fin cfg0.N, (cfg0.win 11).flush t = true ∧ i ∈ ((cfg0.win 11).blk t).view.set := by
  have hi0 : (i 0).val < 1048576 := (i 0).isLt
  have hi1 : (i 1).val < 1 := (i 1).isLt
  obtain ⟨t, ht⟩ := point_of_row i
  obtain ⟨-, -, -, -, -, -, e0, e1⟩ := idx_facts t
  refine ⟨t, flush0_11 t, ?_⟩
  rw [mem_blk11]
  intro a
  match a with
  | ⟨0, _⟩ => show win0_11.index t (0 : Fin 2) * 8192 ≤ (i 0).val ∧ (i 0).val < win0_11.index t (0 : Fin 2) * 8192 + 8192; omega
  | ⟨1, _⟩ => show win0_11.index t (1 : Fin 2) * 1 ≤ (i 1).val ∧ (i 1).val < win0_11.index t (1 : Fin 2) * 1 + 1; omega

/-! ## The result arrays after the region

If what every point writes back to a result's array is that point's block of ONE whole-array function, the
array ends holding that function: the blocks cover it. -/

theorem final9 (G9 : (c : Dev nD) → Buf (Elt Ideal) ((c.tc : Thread nD τ).loc main_v0_0))
    (h9 : ∀ c t, (Gen.dats m 0 c).flushed 9 t = ((cfg0.win 9).blk t).view.read (Elt Ideal) (G9 c)) (c : Dev nD) :
    (Gen.dats m 0 c).arrAt 9 cfg0.N = G9 c :=
  (Gen.dats m 0 c).arrAt_eq_of_cover 9 (G9 c) (fun t _ => h9 c t) cover9

theorem final10 (G10 : (c : Dev nD) → Buf (Elt Ideal) ((c.tc : Thread nD τ).loc main_v0_1))
    (h10 : ∀ c t, (Gen.dats m 0 c).flushed 10 t = ((cfg0.win 10).blk t).view.read (Elt Ideal) (G10 c)) (c : Dev nD) :
    (Gen.dats m 0 c).arrAt 10 cfg0.N = G10 c :=
  (Gen.dats m 0 c).arrAt_eq_of_cover 10 (G10 c) (fun t _ => h10 c t) cover10

theorem final11 (G11 : (c : Dev nD) → Buf (Elt Ideal) ((c.tc : Thread nD τ).loc main_v0_2))
    (h11 : ∀ c t, (Gen.dats m 0 c).flushed 11 t = ((cfg0.win 11).blk t).view.read (Elt Ideal) (G11 c)) (c : Dev nD) :
    (Gen.dats m 0 c).arrAt 11 cfg0.N = G11 c :=
  (Gen.dats m 0 c).arrAt_eq_of_cover 11 (G11 c) (fun t _ => h11 c t) cover11

/-! ## The host operations after the region

The two one-element results are the slice `[0:1, 0:1]` of a result array, reshaped: the array at row 0. -/

/-- The two host results bypass the region: no window stages them. -/
theorem mem_rest_v2 : main_v2 ∈ Pipeline.restRefs sig spec0 := Pipeline.mem_restRefs_of main_v2 rfl (by decide)
theorem mem_rest_v4 : main_v4 ∈ Pipeline.restRefs sig spec0 := Pipeline.mem_restRefs_of main_v4 rfl (by decide)

/-- A one-column array sliced `[0:1, 0:1]` and reshaped to one element is the array at row 0. -/
theorem slice_reshape_row0 (X : S1048576x1.Idx → EReal) :
    shapeCast S1 (extractStridedSlice S1x1 ![0, 0] X slices_S1048576x1_S1x1_0_0) shapeCasts_S1x1_S1
      = fun _ => X (ValueIdx.ix2 0 0) := by
  funext j
  refine (shapeCast_apply _ _ j (ValueIdx.ix2 0 0) ?_).trans ?_
  · rw [Shape.rowMajor_val_two, Shape.rowMajor_val_one]
    have hj : (j 0).val < 1 := (j 0).isLt
    show 0 * 1 + 0 = (j 0).val
    omega
  · refine extractStridedSlice_apply _ _ _ _ (ValueIdx.ix2 0 0) fun a => ?_
    match a with
    | ⟨0, _⟩ => rfl
    | ⟨1, _⟩ => rfl

/-- The first result array as the host operations find it: what the region left. -/
theorem arr9_after (c : Dev nD) :
    Pipeline.withArrays (cfgs 0).spec c (Gen.V0 m c) (fun w => (Gen.dats m 0 c).arrAt w (cfgs 0).N) (Proc.devRef .tc main_v0_0)
      = (Gen.dats m 0 c).arrAt 9 cfg0.N :=
  Pipeline.withArrays_arr spec0 launch0.win.arr_inj c _ _ 9

theorem arr10_after (c : Dev nD) :
    Pipeline.withArrays (cfgs 0).spec c (Gen.V0 m c) (fun w => (Gen.dats m 0 c).arrAt w (cfgs 0).N) (Proc.devRef .tc main_v0_1)
      = (Gen.dats m 0 c).arrAt 10 cfg0.N :=
  Pipeline.withArrays_arr spec0 launch0.win.arr_inj c _ _ 10

/-- The first host result after the run: row 0 of the first result array as the region left it. -/
theorem tail_v2 (c : Dev nD) :
    Pipeline.afterTail₀ cfgs (Gen.dats m) 0 (Gen.V0 m) [hostOps1] c main_v2
      = fun _ => ((Gen.dats m 0 c).arrAt 9 cfg0.N : S1048576x1.Idx → EReal) (ValueIdx.ix2 0 0) := by
  unfold Pipeline.afterTail₀
  show StableHlo.after hostOps1 _ (Proc.devRef .tc main_v2) = _
  after_results
  rw [arr9_after]
  exact slice_reshape_row0 _

/-- The second host result after the run: row 0 of the second result array as the region left it. -/
theorem tail_v4 (c : Dev nD) :
    Pipeline.afterTail₀ cfgs (Gen.dats m) 0 (Gen.V0 m) [hostOps1] c main_v4
      = fun _ => ((Gen.dats m 0 c).arrAt 10 cfg0.N : S1048576x1.Idx → EReal) (ValueIdx.ix2 0 0) := by
  unfold Pipeline.afterTail₀
  show StableHlo.after hostOps1 _ (Proc.devRef .tc main_v4) = _
  after_results
  rw [arr10_after]
  exact slice_reshape_row0 _

/-! ## The run, read -/

/-- The frame run re-posted. For ANY three whole-array functions whose blocks are what the points write back to the
    three result arrays: the two one-element results are the first two at row 0, the third result is the third, and
    the nine arguments are unchanged. -/
theorem run (G9 : (c : Dev nD) → Buf (Elt Ideal) ((c.tc : Thread nD τ).loc main_v0_0))
    (G10 : (c : Dev nD) → Buf (Elt Ideal) ((c.tc : Thread nD τ).loc main_v0_1))
    (G11 : (c : Dev nD) → Buf (Elt Ideal) ((c.tc : Thread nD τ).loc main_v0_2))
    (h9 : ∀ c t, (Gen.dats m 0 c).flushed 9 t = ((cfg0.win 9).blk t).view.read (Elt Ideal) (G9 c))
    (h10 : ∀ c t, (Gen.dats m 0 c).flushed 10 t = ((cfg0.win 10).blk t).view.read (Elt Ideal) (G10 c))
    (h11 : ∀ c t, (Gen.dats m 0 c).flushed 11 t = ((cfg0.win 11).blk t).view.read (Elt Ideal) (G11 c)) :
    θ_run (defs (F := Ideal)) (onTc (τ := τ) (main (F := Ideal))) ⟨m, fun _ => 0, ρ⟩ (fun r => ∀ c : Dev nD,
        r.2.mem ((c.tc : Thread nD τ).loc main_v2) = (fun _ => (G9 c : S1048576x1.Idx → EReal) (ValueIdx.ix2 0 0))
      ∧ r.2.mem ((c.tc : Thread nD τ).loc main_v4) = (fun _ => (G10 c : S1048576x1.Idx → EReal) (ValueIdx.ix2 0 0))
      ∧ r.2.mem ((c.tc : Thread nD τ).loc main_v0_2) = G11 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
      ((h c).2 main_v2 mem_rest_v2).trans ((tail_v2 m c).trans (by rw [final9 m G9 h9 c])),
      ((h c).2 main_v4 mem_rest_v4).trans ((tail_v4 m c).trans (by rw [final10 m G10 h10 c])),
      ((h c).1 11).trans (final11 m G11 h11 c),
      ((h c).1 0).trans (((Gen.dats m 0 c).arrAt_in 0 rfl _).trans ((Gen.A_eq m c 0).trans (Gen.V_main_arg0 m c))),
      ((h c).1 1).trans (((Gen.dats m 0 c).arrAt_in 1 rfl _).trans ((Gen.A_eq m c 1).trans (Gen.V_main_arg1 m c))),
      ((h c).1 2).trans (((Gen.dats m 0 c).arrAt_in 2 rfl _).trans ((Gen.A_eq m c 2).trans (Gen.V_main_arg2 m c))),
      ((h c).1 3).trans (((Gen.dats m 0 c).arrAt_in 3 rfl _).trans ((Gen.A_eq m c 3).trans (Gen.V_main_arg3 m c))),
      ((h c).1 4).trans (((Gen.dats m 0 c).arrAt_in 4 rfl _).trans ((Gen.A_eq m c 4).trans (Gen.V_main_arg4 m c))),
      ((h c).1 5).trans (((Gen.dats m 0 c).arrAt_in 5 rfl _).trans ((Gen.A_eq m c 5).trans (Gen.V_main_arg5 m c))),
      ((h c).1 6).trans (((Gen.dats m 0 c).arrAt_in 6 rfl _).trans ((Gen.A_eq m c 6).trans (Gen.V_main_arg6 m c))),
      ((h c).1 7).trans (((Gen.dats m 0 c).arrAt_in 7 rfl _).trans ((Gen.A_eq m c 7).trans (Gen.V_main_arg7 m c))),
      ((h c).1 8).trans (((Gen.dats m 0 c).arrAt_in 8 rfl _).trans ((Gen.A_eq m c 8).trans (Gen.V_main_arg8 m c)))⟩)
    (Gen.run_main m ρ)

/-! ## What a point writes back, as the payload of the arguments

Each result's staging buffer is stored once, whole, so what point `t` writes back is the stored payload: a tree of
the body's operations over the whole argument arrays and the first argument's block at `t`. -/

theorem hz2 : (![0, 0] : Fin 2 → Nat) = fun _ => 0 := funext fun a => by fin_cases a <;> rfl
theorem hz1 : (![0] : Fin 1 → Nat) = fun _ => 0 := funext fun a => by fin_cases a <;> rfl

theorem flushed9_pay (c : Dev nD) (t : Fin cfg0.N) :
    (Gen.dats m 0 c).flushed 9 t
      = k0_pay1 (m ((c.tc : Thread nD τ).loc main_arg8)) (k0_pay6 (m ((c.tc : Thread nD τ).loc main_arg7)))
          (k0_pay17 (m ((c.tc : Thread nD τ).loc main_arg6)) (k0_pay5 (m ((c.tc : Thread nD τ).loc main_arg5)))
            (k0_pay10 (Gen.iblk m c 0 t) (m ((c.tc : Thread nD τ).loc main_arg1)) (m ((c.tc : Thread nD τ).loc main_arg2)) (m ((c.tc : Thread nD τ).loc main_arg3)) (m ((c.tc : Thread nD τ).loc main_arg4)))) := by
  show (cfg0.win 9).cut (grid0.coords t) ((Gen.dats m 0 c).after 9 t) = _
  rw [Gen.after0_9]
  unfold Gen.out0_9
  rw [View.canon_unit_zero hz2]
  simp only [View.ld_unit_zero (S := S8192x1) hz2, View.ld_unit_zero (S := S1x32) hz2, View.ld_unit_zero (S := S32) hz1,
    View.ld_unit_zero (S := S32x32) hz2, View.ld_unit_zero (S := S32x1) hz2, View.ld_unit_zero (S := S1) hz1]
  rw [iblk1 m c t, iblk2 m c t, iblk3 m c t, iblk4 m c t, iblk5 m c t, iblk6 m c t, iblk7 m c t, iblk8 m c t]
  rfl

theorem flushed10_pay (c : Dev nD) (t : Fin cfg0.N) :
    (Gen.dats m 0 c).flushed 10 t
      = k0_pay2 (k0_pay6 (m ((c.tc : Thread nD τ).loc main_arg7)))
          (k0_pay15 (m ((c.tc : Thread nD τ).loc main_arg6)) (k0_pay4 (m ((c.tc : Thread nD τ).loc main_arg3))) (k0_pay5 (m ((c.tc : Thread nD τ).loc main_arg5)))
            (k0_pay8 (Gen.iblk m c 0 t) (m ((c.tc : Thread nD τ).loc main_arg1)) (m ((c.tc : Thread nD τ).loc main_arg2)))
            (k0_pay10 (Gen.iblk m c 0 t) (m ((c.tc : Thread nD τ).loc main_arg1)) (m ((c.tc : Thread nD τ).loc main_arg2)) (m ((c.tc : Thread nD τ).loc main_arg3)) (m ((c.tc : Thread nD τ).loc main_arg4)))
            (constant S8192x32 .f32 0x00000000#32)) := by
  show (cfg0.win 10).cut (grid0.coords t) ((Gen.dats m 0 c).after 10 t) = _
  rw [Gen.after0_10]
  unfold Gen.out0_10
  rw [View.canon_unit_zero hz2]
  simp only [View.ld_unit_zero (S := S8192x1) hz2, View.ld_unit_zero (S := S1x32) hz2, View.ld_unit_zero (S := S32) hz1,
    View.ld_unit_zero (S := S32x32) hz2, View.ld_unit_zero (S := S32x1) hz2, View.ld_unit_zero (S := S1) hz1]
  rw [iblk1 m c t, iblk2 m c t, iblk3 m c t, iblk4 m c t, iblk5 m c t, iblk6 m c t, iblk7 m c t]
  rfl

theorem flushed11_pay (c : Dev nD) (t : Fin cfg0.N) :
    (Gen.dats m 0 c).flushed 11 t
      = k0_pay3 (k0_pay6 (m ((c.tc : Thread nD τ).loc main_arg7)))
          (k0_pay16 (m ((c.tc : Thread nD τ).loc main_arg6)) (k0_pay4 (m ((c.tc : Thread nD τ).loc main_arg3))) (k0_pay5 (m ((c.tc : Thread nD τ).loc main_arg5)))
            (k0_pay8 (Gen.iblk m c 0 t) (m ((c.tc : Thread nD τ).loc main_arg1)) (m ((c.tc : Thread nD τ).loc main_arg2)))
            (k0_pay9 (Gen.iblk m c 0 t) (m ((c.tc : Thread nD τ).loc main_arg1)) (m ((c.tc : Thread nD τ).loc main_arg2)))
            (k0_pay10 (Gen.iblk m c 0 t) (m ((c.tc : Thread nD τ).loc main_arg1)) (m ((c.tc : Thread nD τ).loc main_arg2)) (m ((c.tc : Thread nD τ).loc main_arg3)) (m ((c.tc : Thread nD τ).loc main_arg4)))
            (constant S8192x32 .f32 0x00000000#32)) := by
  show (cfg0.win 11).cut (grid0.coords t) ((Gen.dats m 0 c).after 11 t) = _
  rw [Gen.after0_11]
  unfold Gen.out0_11
  rw [View.canon_unit_zero hz2]
  simp only [View.ld_unit_zero (S := S8192x1) hz2, View.ld_unit_zero (S := S1x32) hz2, View.ld_unit_zero (S := S32) hz1,
    View.ld_unit_zero (S := S32x32) hz2, View.ld_unit_zero (S := S32x1) hz2, View.ld_unit_zero (S := S1) hz1]
  rw [iblk1 m c t, iblk2 m c t, iblk3 m c t, iblk4 m c t, iblk5 m c t, iblk6 m c t, iblk7 m c t]
  rfl

end Cert.KernelIdeal.RunValue

end
-- ==== Proof.KerPay.lean ====
/-
  The kernel's arithmetic, read against the real network.

  One grid point of the kernel works on a block of 8192 rows. From the block of the input column and the eight
  weight arrays it forms, feature by feature, the three layers' outputs `h`, their first derivatives
  `(1 - h²)·dz` and their second derivatives `-2·h·(1 - h²)·dz² + (1 - h²)·ddz`, each linear step a matrix
  product into a zero accumulator (the narrowing of the operands before each product is the identity on the
  extended reals), and stores the value, the first and the second derivative of the output. Assuming the block and
  the weights hold real numbers (`Reads`), each of these quantities at row `p`, feature `j` is the coercion of the
  real network's quantity (`Cert.Net`) at the scalar `Xb p`: the products of reals are real, a matrix product of
  real operands is the real sum of products, and tanh of a real is the real tanh. No law beyond that is used here:
  the kernel spells the derivatives exactly as `Cert.Net` does.
-/
import proofs.«150447_j79370995630372_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«150447_j79370995630372_2_alg».proof.Proof.Net
import proofs.«150447_j79370995630372_2_alg».proof.Proof.Consts

noncomputable section

namespace Cert.KernelIdeal.Pay

open Cert.KernelIdeal Cert.KernelIdeal.Gen Idealize.ShloMosaic Idealize.ShloMosaic.ValueIdx Cert.Net

/-! ## Layout: a column broadcast along the features -/

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Pointwise operations and literals at an index -/

theorem tanh_apply {s : Shape} {φ : FTy} (x : FVec Ideal s φ) (i : s.Idx) : tanh x i = FloatOps.tanh (x i) := rfl

/-- The literal `1.0` is the real `1`. -/
theorem one_lit : Scalar.ofBits (F := Ideal) .f32 0x3F800000#32 = ((1 : ℝ) : EReal) := Cert.Consts.ofBits_one
/-- The literal `-2.0` is the real `-2`. -/
theorem neg_two_lit : Scalar.ofBits (F := Ideal) .f32 0xC0000000#32 = ((-2 : ℝ) : EReal) := Cert.Consts.ofBits_neg_two

/-- Narrowing a weight matrix before a product is the identity on the extended reals. -/
theorem pay4_apply (v3 : Vec Ideal S32x32 .f32) (i : S32x32.Idx) : k0_pay4 (F := Ideal) v3 i = v3 i := rfl
theorem pay5_apply (v5 : Vec Ideal S32x32 .f32) (i : S32x32.Idx) : k0_pay5 (F := Ideal) v5 i = v5 i := rfl
theorem pay6_apply (v7 : Vec Ideal S32x1 .f32) (i : S32x1.Idx) : k0_pay6 (F := Ideal) v7 i = v7 i := rfl

/-! ## The two matrix products -/

theorem lhs32_0 (i : S8192x32.Idx) (q : dot_S8192x32_S32x32_S8192x32_1_0_0_1_n_n.contr.Idx) : (dot_S8192x32_S32x32_S8192x32_1_0_0_1_n_n.lhsIdx i q 0).val = (i 0).val := by
  unfold DotDims.lhsIdx
  rw [dif_neg (show ¬(0 : Fin S8192x32.rank) ∈ dot_S8192x32_S32x32_S8192x32_1_0_0_1_n_n.lhsBatch by decide), dif_pos (show (0 : Fin S8192x32.rank) ∈ dot_S8192x32_S32x32_S8192x32_1_0_0_1_n_n.lhsNonContracting by decide)]
  rfl
theorem lhs32_1 (i : S8192x32.Idx) (q : dot_S8192x32_S32x32_S8192x32_1_0_0_1_n_n.contr.Idx) : (dot_S8192x32_S32x32_S8192x32_1_0_0_1_n_n.lhsIdx i q 1).val = (q ⟨0, by decide⟩).val :=
  dot_S8192x32_S32x32_S8192x32_1_0_0_1_n_n.lhsIdx_val_of_single rfl i q
theorem rhs32_0 (i : S8192x32.Idx) (q : dot_S8192x32_S32x32_S8192x32_1_0_0_1_n_n.contr.Idx) : (dot_S8192x32_S32x32_S8192x32_1_0_0_1_n_n.rhsIdx i q 0).val = (q ⟨0, by decide⟩).val :=
  dot_S8192x32_S32x32_S8192x32_1_0_0_1_n_n.rhsIdx_val_of_single rfl i q
theorem rhs32_1 (i : S8192x32.Idx) (q : dot_S8192x32_S32x32_S8192x32_1_0_0_1_n_n.contr.Idx) : (dot_S8192x32_S32x32_S8192x32_1_0_0_1_n_n.rhsIdx i q 1).val = (i 1).val := by
  unfold DotDims.rhsIdx
  rw [dif_neg (show ¬(1 : Fin S32x32.rank) ∈ dot_S8192x32_S32x32_S8192x32_1_0_0_1_n_n.rhsBatch by decide), dif_pos (show (1 : Fin S32x32.rank) ∈ dot_S8192x32_S32x32_S8192x32_1_0_0_1_n_n.rhsNonContracting by decide)]
  rfl

/-- A matrix product into a zero accumulator, read at `(p, j)`: the sum over the 32 contracted positions of the
    left operand's row `p` times the right operand's column `j`. -/
theorem mm32 {φ₁ φ₂ : FTy} (lhs : FVec Ideal S8192x32 φ₁) (rhs : FVec Ideal S32x32 φ₂) (p : Fin 8192) (j : Fin 32) :
    matmul dot_S8192x32_S32x32_S8192x32_1_0_0_1_n_n none lhs rhs (constant (F := Ideal) S8192x32 .f32 0x00000000#32) (ix2 p j)
      = ∑ k : Fin 32, lhs (ix2 p k) * rhs (ix2 k j) := by
  refine (Ideal.matmul_constant_zero_apply dot_S8192x32_S32x32_S8192x32_1_0_0_1_n_n none lhs rhs (ix2 p j)).trans ?_
  rw [← Equiv.sum_comp (ValueIdx.contrEquiv1 dot_S8192x32_S32x32_S8192x32_1_0_0_1_n_n 32 rfl rfl).symm]
  refine Finset.sum_congr rfl fun k _ => ?_
  have hk := ValueIdx.contrEquiv1_symm_val dot_S8192x32_S32x32_S8192x32_1_0_0_1_n_n 32 rfl rfl k
  have el : dot_S8192x32_S32x32_S8192x32_1_0_0_1_n_n.lhsIdx (ix2 p j) ((ValueIdx.contrEquiv1 dot_S8192x32_S32x32_S8192x32_1_0_0_1_n_n 32 rfl rfl).symm k) = ix2 p k := funext fun a => Fin.ext (by
    match a with
    | ⟨0, _⟩ => exact lhs32_0 _ _
    | ⟨1, _⟩ => exact (lhs32_1 _ _).trans hk)
  have er : dot_S8192x32_S32x32_S8192x32_1_0_0_1_n_n.rhsIdx (ix2 p j) ((ValueIdx.contrEquiv1 dot_S8192x32_S32x32_S8192x32_1_0_0_1_n_n 32 rfl rfl).symm k) = ix2 k j := funext fun a => Fin.ext (by
    match a with
    | ⟨0, _⟩ => exact (rhs32_0 _ _).trans hk
    | ⟨1, _⟩ => exact rhs32_1 _ _)
  rw [el, er]

theorem lhs1_0 (i : S8192x1.Idx) (q : dot_S8192x32_S32x1_S8192x1_1_0_0_1_n_n.contr.Idx) : (dot_S8192x32_S32x1_S8192x1_1_0_0_1_n_n.lhsIdx i q 0).val = (i 0).val := by
  unfold DotDims.lhsIdx
  rw [dif_neg (show ¬(0 : Fin S8192x32.rank) ∈ dot_S8192x32_S32x1_S8192x1_1_0_0_1_n_n.lhsBatch by decide), dif_pos (show (0 : Fin S8192x32.rank) ∈ dot_S8192x32_S32x1_S8192x1_1_0_0_1_n_n.lhsNonContracting by decide)]
  rfl
theorem lhs1_1 (i : S8192x1.Idx) (q : dot_S8192x32_S32x1_S8192x1_1_0_0_1_n_n.contr.Idx) : (dot_S8192x32_S32x1_S8192x1_1_0_0_1_n_n.lhsIdx i q 1).val = (q ⟨0, by decide⟩).val :=
  dot_S8192x32_S32x1_S8192x1_1_0_0_1_n_n.lhsIdx_val_of_single rfl i q
theorem rhs1_0 (i : S8192x1.Idx) (q : dot_S8192x32_S32x1_S8192x1_1_0_0_1_n_n.contr.Idx) : (dot_S8192x32_S32x1_S8192x1_1_0_0_1_n_n.rhsIdx i q 0).val = (q ⟨0, by decide⟩).val :=
  dot_S8192x32_S32x1_S8192x1_1_0_0_1_n_n.rhsIdx_val_of_single rfl i q
theorem rhs1_1 (i : S8192x1.Idx) (q : dot_S8192x32_S32x1_S8192x1_1_0_0_1_n_n.contr.Idx) : (dot_S8192x32_S32x1_S8192x1_1_0_0_1_n_n.rhsIdx i q 1).val = (i 1).val := by
  unfold DotDims.rhsIdx
  rw [dif_neg (show ¬(1 : Fin S32x1.rank) ∈ dot_S8192x32_S32x1_S8192x1_1_0_0_1_n_n.rhsBatch by decide), dif_pos (show (1 : Fin S32x1.rank) ∈ dot_S8192x32_S32x1_S8192x1_1_0_0_1_n_n.rhsNonContracting by decide)]
  rfl

/-- A matrix product into a zero accumulator, read at `(p, j)`: the sum over the 32 contracted positions of the
    left operand's row `p` times the right operand's column `j`. -/
theorem mm1 {φ₁ φ₂ : FTy} (lhs : FVec Ideal S8192x32 φ₁) (rhs : FVec Ideal S32x1 φ₂) (p : Fin 8192) (j : Fin 1) :
    matmul dot_S8192x32_S32x1_S8192x1_1_0_0_1_n_n none lhs rhs (constant (F := Ideal) S8192x1 .f32 0x00000000#32) (ix2 p j)
      = ∑ k : Fin 32, lhs (ix2 p k) * rhs (ix2 k j) := by
  refine (Ideal.matmul_constant_zero_apply dot_S8192x32_S32x1_S8192x1_1_0_0_1_n_n none lhs rhs (ix2 p j)).trans ?_
  rw [← Equiv.sum_comp (ValueIdx.contrEquiv1 dot_S8192x32_S32x1_S8192x1_1_0_0_1_n_n 32 rfl rfl).symm]
  refine Finset.sum_congr rfl fun k _ => ?_
  have hk := ValueIdx.contrEquiv1_symm_val dot_S8192x32_S32x1_S8192x1_1_0_0_1_n_n 32 rfl rfl k
  have el : dot_S8192x32_S32x1_S8192x1_1_0_0_1_n_n.lhsIdx (ix2 p j) ((ValueIdx.contrEquiv1 dot_S8192x32_S32x1_S8192x1_1_0_0_1_n_n 32 rfl rfl).symm k) = ix2 p k := funext fun a => Fin.ext (by
    match a with
    | ⟨0, _⟩ => exact lhs1_0 _ _
    | ⟨1, _⟩ => exact (lhs1_1 _ _).trans hk)
  have er : dot_S8192x32_S32x1_S8192x1_1_0_0_1_n_n.rhsIdx (ix2 p j) ((ValueIdx.contrEquiv1 dot_S8192x32_S32x1_S8192x1_1_0_0_1_n_n 32 rfl rfl).symm k) = ix2 k j := funext fun a => Fin.ext (by
    match a with
    | ⟨0, _⟩ => exact (rhs1_0 _ _).trans hk
    | ⟨1, _⟩ => exact rhs1_1 _ _)
  rw [el, er]

/-! ## The block holds real numbers -/

/-- The block of the input column is `Xb`, and the weights are `P`. -/
structure Reads (v0 : Vec Ideal S8192x1 .f32) (v1 : Vec Ideal S1x32 .f32) (v2 : Vec Ideal S32 .f32) (v3 : Vec Ideal S32x32 .f32)
    (v4 : Vec Ideal S32 .f32) (v5 : Vec Ideal S32x32 .f32) (v6 : Vec Ideal S32 .f32) (v7 : Vec Ideal S32x1 .f32) (v8 : Vec Ideal S1 .f32)
    (Xb : Fin 8192 → ℝ) (P : Params) : Prop where
  h0 : ∀ p : Fin 8192, v0 (ix2 p (0 : Fin 1)) = ((Xb p : ℝ) : EReal)
  h1 : ∀ j : Fin 32, v1 (ix2 (0 : Fin 1) j) = ((P.w1 j : ℝ) : EReal)
  h2 : ∀ j : Fin 32, v2 (ix1 j) = ((P.b1 j : ℝ) : EReal)
  h3 : ∀ k j : Fin 32, v3 (ix2 k j) = ((P.W2 k j : ℝ) : EReal)
  h4 : ∀ j : Fin 32, v4 (ix1 j) = ((P.b2 j : ℝ) : EReal)
  h5 : ∀ k j : Fin 32, v5 (ix2 k j) = ((P.W3 k j : ℝ) : EReal)
  h6 : ∀ j : Fin 32, v6 (ix1 j) = ((P.b3 j : ℝ) : EReal)
  h7 : ∀ k : Fin 32, v7 (ix2 k (0 : Fin 1)) = ((P.w4 k : ℝ) : EReal)
  h8 : v8 (ix1 (0 : Fin 1)) = ((P.b4 : ℝ) : EReal)

/-! ## The payloads -/

section
variable {v0 : Vec Ideal S8192x1 .f32} {v1 : Vec Ideal S1x32 .f32} {v2 : Vec Ideal S32 .f32} {v3 : Vec Ideal S32x32 .f32}
  {v4 : Vec Ideal S32 .f32} {v5 : Vec Ideal S32x32 .f32} {v6 : Vec Ideal S32 .f32} {v7 : Vec Ideal S32x1 .f32} {v8 : Vec Ideal S1 .f32}
  {Xb : Fin 8192 → ℝ} {P : Params}
variable (H : Reads v0 v1 v2 v3 v4 v5 v6 v7 v8 Xb P) (p : Fin 8192) (j : Fin 32)
include H

/-- The first layer's output at row `p`, feature `j`. -/
theorem pay7 : k0_pay7 (F := Ideal) v0 v1 v2 (ix2 p j) = ((h1 P (Xb p) j : ℝ) : EReal) := by
  unfold k0_pay7
  simp only [tanh_apply, truncf_apply, mulf_apply, addf_apply, subf_apply, broadcast_apply, one_lit, neg_two_lit, pay4_apply, pay5_apply, pay6_apply, broadcastTo_a1_ab_apply, broadcastTo_1b_ab_apply, shapeCast_a_1a_apply, H.h0, H.h1, H.h2, ← EReal.coe_mul, ← EReal.coe_add, ← EReal.coe_sub, coe_sum, Ideal.tanh_def, Ideal.tanh_coe]
  rfl

/-- Its first derivative `(1 - h₁²)·w₁`. -/
theorem pay8 : k0_pay8 (F := Ideal) v0 v1 v2 (ix2 p j) = ((d1 P (Xb p) j : ℝ) : EReal) := by
  unfold k0_pay8
  simp only [truncf_apply, mulf_apply, addf_apply, subf_apply, broadcast_apply, one_lit, neg_two_lit, pay4_apply, pay5_apply, pay6_apply, broadcastTo_a1_ab_apply, broadcastTo_1b_ab_apply, shapeCast_a_1a_apply, pay7 H, H.h1, ← EReal.coe_mul, ← EReal.coe_add, ← EReal.coe_sub, coe_sum]
  rfl

/-- Its second derivative `-2·h₁·(1 - h₁²)·w₁²`. -/
theorem pay9 : k0_pay9 (F := Ideal) v0 v1 v2 (ix2 p j) = ((e1 P (Xb p) j : ℝ) : EReal) := by
  unfold k0_pay9
  simp only [truncf_apply, mulf_apply, addf_apply, subf_apply, broadcast_apply, one_lit, neg_two_lit, pay4_apply, pay5_apply, pay6_apply, broadcastTo_a1_ab_apply, broadcastTo_1b_ab_apply, shapeCast_a_1a_apply, pay7 H, H.h1, ← EReal.coe_mul, ← EReal.coe_add, ← EReal.coe_sub, coe_sum]
  rfl

/-- The second pre-activation. -/
theorem pay10 : k0_pay10 (F := Ideal) v0 v1 v2 v3 v4 (ix2 p j) = ((z2 P (Xb p) j : ℝ) : EReal) := by
  unfold k0_pay10
  simp only [truncf_apply, mulf_apply, addf_apply, subf_apply, broadcast_apply, one_lit, neg_two_lit, pay4_apply, pay5_apply, pay6_apply, broadcastTo_a1_ab_apply, broadcastTo_1b_ab_apply, shapeCast_a_1a_apply, mm32, pay7 H, H.h3, H.h4, ← EReal.coe_mul, ← EReal.coe_add, ← EReal.coe_sub, coe_sum]
  rfl

/-- The second pre-activation's first derivative. -/
theorem pay11 : k0_pay11 (F := Ideal) (k0_pay4 v3) (k0_pay8 v0 v1 v2) (constant (F := Ideal) S8192x32 .f32 0x00000000#32) (ix2 p j) = ((dz2 P (Xb p) j : ℝ) : EReal) := by
  unfold k0_pay11
  simp only [truncf_apply, mulf_apply, addf_apply, subf_apply, broadcast_apply, one_lit, neg_two_lit, pay4_apply, pay5_apply, pay6_apply, mm32, pay8 H, H.h3, ← EReal.coe_mul, ← EReal.coe_add, ← EReal.coe_sub, coe_sum]
  rfl

/-- The second layer's output. -/
theorem pay12 : k0_pay12 (F := Ideal) (k0_pay10 v0 v1 v2 v3 v4) (ix2 p j) = ((h2 P (Xb p) j : ℝ) : EReal) := by
  unfold k0_pay12
  simp only [tanh_apply, pay10 H, Ideal.tanh_def, Ideal.tanh_coe]
  rfl

/-- The third pre-activation's first derivative: the second layer's `(1 - h₂²)·dz₂` through the third matrix. -/
theorem pay13 : k0_pay13 (F := Ideal) (k0_pay4 v3) (k0_pay5 v5) (k0_pay8 v0 v1 v2) (k0_pay10 v0 v1 v2 v3 v4) (constant (F := Ideal) S8192x32 .f32 0x00000000#32) (ix2 p j) = ((dz3 P (Xb p) j : ℝ) : EReal) := by
  unfold k0_pay13
  simp only [truncf_apply, mulf_apply, addf_apply, subf_apply, broadcast_apply, one_lit, neg_two_lit, pay4_apply, pay5_apply, pay6_apply, mm32, pay12 H, pay11 H, H.h5, ← EReal.coe_mul, ← EReal.coe_add, ← EReal.coe_sub, coe_sum]
  rfl

/-- The third layer's output. -/
theorem pay14 : k0_pay14 (F := Ideal) v6 (k0_pay5 v5) (k0_pay10 v0 v1 v2 v3 v4) (ix2 p j) = ((h3 P (Xb p) j : ℝ) : EReal) := by
  unfold k0_pay14
  simp only [tanh_apply, truncf_apply, mulf_apply, addf_apply, subf_apply, broadcast_apply, one_lit, neg_two_lit, pay4_apply, pay5_apply, pay6_apply, broadcastTo_a1_ab_apply, broadcastTo_1b_ab_apply, shapeCast_a_1a_apply, mm32, pay12 H, H.h5, H.h6, ← EReal.coe_mul, ← EReal.coe_add, ← EReal.coe_sub, coe_sum, Ideal.tanh_def, Ideal.tanh_coe]
  rfl

/-- The third layer's first derivative `(1 - h₃²)·dz₃`. -/
theorem pay15 : k0_pay15 (F := Ideal) v6 (k0_pay4 v3) (k0_pay5 v5) (k0_pay8 v0 v1 v2) (k0_pay10 v0 v1 v2 v3 v4) (constant (F := Ideal) S8192x32 .f32 0x00000000#32) (ix2 p j) = ((d3 P (Xb p) j : ℝ) : EReal) := by
  unfold k0_pay15
  simp only [truncf_apply, mulf_apply, addf_apply, subf_apply, broadcast_apply, one_lit, neg_two_lit, pay4_apply, pay5_apply, pay6_apply, pay14 H, pay13 H, ← EReal.coe_mul, ← EReal.coe_add, ← EReal.coe_sub, coe_sum]
  rfl

/-- The third layer's second derivative: inside it the second layer's second derivative, through the third matrix. -/
theorem pay16 : k0_pay16 (F := Ideal) v6 (k0_pay4 v3) (k0_pay5 v5) (k0_pay8 v0 v1 v2) (k0_pay9 v0 v1 v2) (k0_pay10 v0 v1 v2 v3 v4) (constant (F := Ideal) S8192x32 .f32 0x00000000#32) (ix2 p j) = ((e3 P (Xb p) j : ℝ) : EReal) := by
  unfold k0_pay16
  simp only [truncf_apply, mulf_apply, addf_apply, subf_apply, broadcast_apply, one_lit, neg_two_lit, pay4_apply, pay5_apply, pay6_apply, mm32, pay9 H, pay11 H, pay12 H, pay13 H, pay14 H, H.h3, H.h5, ← EReal.coe_mul, ← EReal.coe_add, ← EReal.coe_sub, coe_sum]
  rfl

/-- The third layer's output again (the operand of the output product). -/
theorem pay17 : k0_pay17 (F := Ideal) v6 (k0_pay5 v5) (k0_pay10 v0 v1 v2 v3 v4) (ix2 p j) = ((h3 P (Xb p) j : ℝ) : EReal) := by
  unfold k0_pay17
  simp only [truncf_apply, mulf_apply, addf_apply, subf_apply, broadcast_apply, one_lit, neg_two_lit, pay4_apply, pay5_apply, pay6_apply, pay14 H]

/-- The first stored block: the network's value at row `p`. -/
theorem pay1 : k0_pay1 (F := Ideal) v8 (k0_pay6 v7) (k0_pay17 v6 (k0_pay5 v5) (k0_pay10 v0 v1 v2 v3 v4)) (ix2 p (0 : Fin 1)) = ((y P (Xb p) : ℝ) : EReal) := by
  unfold k0_pay1
  simp only [truncf_apply, mulf_apply, addf_apply, subf_apply, broadcast_apply, one_lit, neg_two_lit, pay4_apply, pay5_apply, pay6_apply, broadcastTo_a1_ab_apply, broadcastTo_1b_ab_apply, shapeCast_a_1a_apply, mm1, pay17 H, H.h7, H.h8, ← EReal.coe_mul, ← EReal.coe_add, ← EReal.coe_sub, coe_sum]
  rfl

/-- The second stored block: the first derivative at row `p`. -/
theorem pay2 : k0_pay2 (F := Ideal) (k0_pay6 v7) (k0_pay15 v6 (k0_pay4 v3) (k0_pay5 v5) (k0_pay8 v0 v1 v2) (k0_pay10 v0 v1 v2 v3 v4) (constant (F := Ideal) S8192x32 .f32 0x00000000#32)) (ix2 p (0 : Fin 1)) = ((dy P (Xb p) : ℝ) : EReal) := by
  unfold k0_pay2
  simp only [truncf_apply, mulf_apply, addf_apply, subf_apply, broadcast_apply, one_lit, neg_two_lit, pay4_apply, pay5_apply, pay6_apply, mm1, pay15 H, H.h7, ← EReal.coe_mul, ← EReal.coe_add, ← EReal.coe_sub, coe_sum]
  rfl

/-- The third stored block: the second derivative at row `p`. -/
theorem pay3 : k0_pay3 (F := Ideal) (k0_pay6 v7) (k0_pay16 v6 (k0_pay4 v3) (k0_pay5 v5) (k0_pay8 v0 v1 v2) (k0_pay9 v0 v1 v2) (k0_pay10 v0 v1 v2 v3 v4) (constant (F := Ideal) S8192x32 .f32 0x00000000#32)) (ix2 p (0 : Fin 1)) = ((ddy P (Xb p) : ℝ) : EReal) := by
  unfold k0_pay3
  simp only [truncf_apply, mulf_apply, addf_apply, subf_apply, broadcast_apply, one_lit, neg_two_lit, pay4_apply, pay5_apply, pay6_apply, mm1, pay16 H, H.h7, ← EReal.coe_mul, ← EReal.coe_add, ← EReal.coe_sub, coe_sum]
  rfl

end

end Cert.KernelIdeal.Pay

end
-- ==== Proof.Reals.lean ====
/-
  From "every entry is a real number" to the real arrays the network is stated over.

  An extended real that is a real number is the coercion of its own real part. So an input column all of whose
  entries are real is the coercion of a real column (`colOf`), and eight weight arrays all of whose entries are real
  are the coercions of real weights (`paramsOf`). These are what the two programs' arrays are read against.
-/
import Idealize.ShloMosaic.Lib.ValueIdx
import proofs.«150447_j79370995630372_2_alg».proof.Proof.Net

noncomputable section

namespace Cert.Reals

open Idealize.ShloMosaic Idealize.ShloMosaic.ValueIdx Cert.Net

/-- A real number inside the extended reals is the coercion of its real part. -/
theorem eq_coe_toReal {x : EReal} (h : ∃ r : ℝ, x = (r : EReal)) : x = ((x.toReal : ℝ) : EReal) := by
  obtain ⟨r, rfl⟩ := h
  rw [EReal.toReal_coe]

/-- The input column as real numbers, row by row. -/
def colOf (x0 : (⟨2, ![1048576, 1]⟩ : Shape).Idx → EReal) (r : Fin 1048576) : ℝ := (x0 (ix2 r (0 : Fin 1))).toReal

/-- The eight weight arrays as real weights. -/
def paramsOf (x1 : (⟨2, ![1, 32]⟩ : Shape).Idx → EReal) (x2 : (⟨1, ![32]⟩ : Shape).Idx → EReal) (x3 : (⟨2, ![32, 32]⟩ : Shape).Idx → EReal)
    (x4 : (⟨1, ![32]⟩ : Shape).Idx → EReal) (x5 : (⟨2, ![32, 32]⟩ : Shape).Idx → EReal) (x6 : (⟨1, ![32]⟩ : Shape).Idx → EReal)
    (x7 : (⟨2, ![32, 1]⟩ : Shape).Idx → EReal) (x8 : (⟨1, ![1]⟩ : Shape).Idx → EReal) : Params where
  w1 j := (x1 (ix2 (0 : Fin 1) j)).toReal
  b1 j := (x2 (ix1 j)).toReal
  W2 k j := (x3 (ix2 k j)).toReal
  b2 j := (x4 (ix1 j)).toReal
  W3 k j := (x5 (ix2 k j)).toReal
  b3 j := (x6 (ix1 j)).toReal
  w4 k := (x7 (ix2 k (0 : Fin 1))).toReal
  b4 := (x8 (ix1 (0 : Fin 1))).toReal

/-- An index of a one-column array is its row with column `0`. -/
theorem eq_row (i : (⟨2, ![1048576, 1]⟩ : Shape).Idx) : i = ix2 (i 0) (0 : Fin 1) :=
  (eq_ix2 i).trans (congrArg (ix2 (i 0)) (Fin.ext (Nat.lt_one_iff.mp (i 1).isLt)))

/-- A column of real numbers, read at any index, is the coercion of `colOf` at that index's row. -/
theorem col_read (x0 : (⟨2, ![1048576, 1]⟩ : Shape).Idx → EReal) (h0 : ∀ i, ∃ r : ℝ, x0 i = (r : EReal))
    (i : (⟨2, ![1048576, 1]⟩ : Shape).Idx) : x0 i = ((colOf x0 (i 0) : ℝ) : EReal) := by
  exact (eq_coe_toReal (h0 i)).trans (congrArg (fun z => (((x0 z).toReal : ℝ) : EReal)) (eq_row i))

end Cert.Reals

end
-- ==== Proof.KerValue.lean ====
/-
  The kernel's three result arrays as whole-array functions of the arguments.

  When every argument entry is a real number, the kernel's result arrays are, row by row, the real network's value,
  first derivative and second derivative at that row's input: `Gy`, `Gdy`, `Gddy`. A grid point writes back a block of
  8192 rows; its stored payloads were read against the real network at a block's row (the payload lemmas), and the
  block's row `p` at point `t` is the array's row where the result window puts it, which is also where the input
  window took its row `p` from — so what a point writes back is a block of the ONE whole-array function, the 128 blocks
  cover the array, and the run ends with the three results at `Gy` row 0, `Gdy` row 0 and `Gddy`.
-/
import proofs.«150447_j79370995630372_2_alg».proof.Proof.KernelRun
import proofs.«150447_j79370995630372_2_alg».proof.Proof.KerPay
import proofs.«150447_j79370995630372_2_alg».proof.Proof.Reals

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Cert.Net Cert.Reals

variable (m : (ℓ : Loc nD τ sig) → Buf (Elt Ideal) ℓ) (ρ : Dev nD → PrngReg)

/-- Every entry of the nine argument arrays on device `c` is a real number. -/
def RealArgs (c : Dev nD) : Prop :=
  (∀ i, ∃ r : ℝ, (m ((c.tc : Thread nD τ).loc main_arg0)) i = (r : EReal)) ∧ (∀ i, ∃ r : ℝ, (m ((c.tc : Thread nD τ).loc main_arg1)) i = (r : EReal)) ∧ (∀ i, ∃ r : ℝ, (m ((c.tc : Thread nD τ).loc main_arg2)) i = (r : EReal))
    ∧ (∀ i, ∃ r : ℝ, (m ((c.tc : Thread nD τ).loc main_arg3)) i = (r : EReal)) ∧ (∀ i, ∃ r : ℝ, (m ((c.tc : Thread nD τ).loc main_arg4)) i = (r : EReal)) ∧ (∀ i, ∃ r : ℝ, (m ((c.tc : Thread nD τ).loc main_arg5)) i = (r : EReal))
    ∧ (∀ i, ∃ r : ℝ, (m ((c.tc : Thread nD τ).loc main_arg6)) i = (r : EReal)) ∧ (∀ i, ∃ r : ℝ, (m ((c.tc : Thread nD τ).loc main_arg7)) i = (r : EReal)) ∧ (∀ i, ∃ r : ℝ, (m ((c.tc : Thread nD τ).loc main_arg8)) i = (r : EReal))

/-- The input column on device `c`, as real numbers. -/
def X (c : Dev nD) : Fin 1048576 → ℝ := colOf (m ((c.tc : Thread nD τ).loc main_arg0))

/-- The weights on device `c`, as real numbers. -/
def P (c : Dev nD) : Params :=
  paramsOf (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8))

/-- The network's value, row by row. -/
def Gy (c : Dev nD) : Buf (Elt Ideal) ((c.tc : Thread nD τ).loc main_v0_0) :=
  fun i : S1048576x1.Idx => ((y (P m c) (X m c (i 0)) : ℝ) : EReal)
/-- The network's first derivative, row by row. -/
def Gdy (c : Dev nD) : Buf (Elt Ideal) ((c.tc : Thread nD τ).loc main_v0_1) :=
  fun i : S1048576x1.Idx => ((dy (P m c) (X m c (i 0)) : ℝ) : EReal)
/-- The network's second derivative, row by row. -/
def Gddy (c : Dev nD) : Buf (Elt Ideal) ((c.tc : Thread nD τ).loc main_v0_2) :=
  fun i : S1048576x1.Idx => ((ddy (P m c) (X m c (i 0)) : ℝ) : EReal)

/-- At point `t` the block of the input column and the eight weight arrays hold real numbers: the block's row `p` is the
    array's row where result window 9's block puts its row `p`. -/
theorem blockReads9 {c : Dev nD} (hf : RealArgs m c) (t : Fin cfg0.N) :
    Pay.Reads (Gen.iblk m c 0 t) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8))
      (fun p => X m c ((((cfg0.win 9).blk t).view.emb (ix2 p (0 : Fin 1)) : S1048576x1.Idx) 0)) (P m c) where
  h0 p := by
    rw [RunValue.iblk0_apply9 m c t]
    exact col_read _ hf.1 _
  h1 j := eq_coe_toReal (hf.2.1 _)
  h2 j := eq_coe_toReal (hf.2.2.1 _)
  h3 k j := eq_coe_toReal (hf.2.2.2.1 _)
  h4 j := eq_coe_toReal (hf.2.2.2.2.1 _)
  h5 k j := eq_coe_toReal (hf.2.2.2.2.2.1 _)
  h6 j := eq_coe_toReal (hf.2.2.2.2.2.2.1 _)
  h7 k := eq_coe_toReal (hf.2.2.2.2.2.2.2.1 _)
  h8 := eq_coe_toReal (hf.2.2.2.2.2.2.2.2 _)

/-- At point `t` the block of the input column and the eight weight arrays hold real numbers: the block's row `p` is the
    array's row where result window 10's block puts its row `p`. -/
theorem blockReads10 {c : Dev nD} (hf : RealArgs m c) (t : Fin cfg0.N) :
    Pay.Reads (Gen.iblk m c 0 t) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8))
      (fun p => X m c ((((cfg0.win 10).blk t).view.emb (ix2 p (0 : Fin 1)) : S1048576x1.Idx) 0)) (P m c) where
  h0 p := by
    rw [RunValue.iblk0_apply10 m c t]
    exact col_read _ hf.1 _
  h1 j := eq_coe_toReal (hf.2.1 _)
  h2 j := eq_coe_toReal (hf.2.2.1 _)
  h3 k j := eq_coe_toReal (hf.2.2.2.1 _)
  h4 j := eq_coe_toReal (hf.2.2.2.2.1 _)
  h5 k j := eq_coe_toReal (hf.2.2.2.2.2.1 _)
  h6 j := eq_coe_toReal (hf.2.2.2.2.2.2.1 _)
  h7 k := eq_coe_toReal (hf.2.2.2.2.2.2.2.1 _)
  h8 := eq_coe_toReal (hf.2.2.2.2.2.2.2.2 _)

/-- At point `t` the block of the input column and the eight weight arrays hold real numbers: the block's row `p` is the
    array's row where result window 11's block puts its row `p`. -/
theorem blockReads11 {c : Dev nD} (hf : RealArgs m c) (t : Fin cfg0.N) :
    Pay.Reads (Gen.iblk m c 0 t) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8))
      (fun p => X m c ((((cfg0.win 11).blk t).view.emb (ix2 p (0 : Fin 1)) : S1048576x1.Idx) 0)) (P m c) where
  h0 p := by
    rw [RunValue.iblk0_apply11 m c t]
    exact col_read _ hf.1 _
  h1 j := eq_coe_toReal (hf.2.1 _)
  h2 j := eq_coe_toReal (hf.2.2.1 _)
  h3 k j := eq_coe_toReal (hf.2.2.2.1 _)
  h4 j := eq_coe_toReal (hf.2.2.2.2.1 _)
  h5 k j := eq_coe_toReal (hf.2.2.2.2.2.1 _)
  h6 j := eq_coe_toReal (hf.2.2.2.2.2.2.1 _)
  h7 k := eq_coe_toReal (hf.2.2.2.2.2.2.2.1 _)
  h8 := eq_coe_toReal (hf.2.2.2.2.2.2.2.2 _)

/-- What point `t` writes back to result 1 is block `t` of `Gy`: the stored payload at the block's row `p` is the
    network's `y` at the input of the array row the block's row `p` sits at. -/
theorem flushed9_eq (hf : ∀ c, RealArgs m c) (c : Dev nD) (t : Fin cfg0.N) :
    (Gen.dats m 0 c).flushed 9 t = ((cfg0.win 9).blk t).view.read (Elt Ideal) (Gy m c) := by
  rw [RunValue.flushed9_pay m c t]
  funext y'
  obtain ⟨p, q, rfl⟩ : ∃ (p : Fin 8192) (q : Fin 1), y' = ix2 p q := ⟨y' 0, y' 1, eq_ix2 y'⟩
  obtain rfl : q = 0 := Subsingleton.elim _ _
  exact Pay.pay1 (blockReads9 m (hf c) t) p

/-- What point `t` writes back to result 2 is block `t` of `Gdy`: the stored payload at the block's row `p` is the
    network's `dy` at the input of the array row the block's row `p` sits at. -/
theorem flushed10_eq (hf : ∀ c, RealArgs m c) (c : Dev nD) (t : Fin cfg0.N) :
    (Gen.dats m 0 c).flushed 10 t = ((cfg0.win 10).blk t).view.read (Elt Ideal) (Gdy m c) := by
  rw [RunValue.flushed10_pay m c t]
  funext y'
  obtain ⟨p, q, rfl⟩ : ∃ (p : Fin 8192) (q : Fin 1), y' = ix2 p q := ⟨y' 0, y' 1, eq_ix2 y'⟩
  obtain rfl : q = 0 := Subsingleton.elim _ _
  exact Pay.pay2 (blockReads10 m (hf c) t) p

/-- What point `t` writes back to result 3 is block `t` of `Gddy`: the stored payload at the block's row `p` is the
    network's `ddy` at the input of the array row the block's row `p` sits at. -/
theorem flushed11_eq (hf : ∀ c, RealArgs m c) (c : Dev nD) (t : Fin cfg0.N) :
    (Gen.dats m 0 c).flushed 11 t = ((cfg0.win 11).blk t).view.read (Elt Ideal) (Gddy m c) := by
  rw [RunValue.flushed11_pay m c t]
  funext y'
  obtain ⟨p, q, rfl⟩ : ∃ (p : Fin 8192) (q : Fin 1), y' = ix2 p q := ⟨y' 0, y' 1, eq_ix2 y'⟩
  obtain rfl : q = 0 := Subsingleton.elim _ _
  exact Pay.pay3 (blockReads11 m (hf c) t) p

end Cert.KernelIdeal.Whole

end
-- ==== Proof.lean ====
/-
  The certificate: an explicit second derivative of a small network against automatic differentiation.

  Both programs evaluate, for each of 1048576 scalar inputs `x`, a four-layer perceptron with tanh activations,
  together with dy/dx and d²y/dx², and return row 0 of y, row 0 of dy/dx, and the whole column d²y/dx².
  The kernel carries the two derivatives through the layers by the chain rule written out by hand:
  `dh = (1 - h²)·dz` and `ddh = -2·h·(1 - h²)·dz² + (1 - h²)·ddz` at each tanh, the same matrix at each linear step.
  The reference differentiates the network's program twice along the all-ones tangent, which spells the same
  derivatives as `(g + g·h)·(1 - h)` and the derivative of that expression. On real numbers the two spellings agree by
  distributivity; on the extended reals distributivity fails at the infinities, so the agreement NEEDS the
  precondition that every input is finite — and then every intermediate quantity is a real number, because sums and
  products of reals are real and tanh of a real is real. The proof therefore reads both programs' results as coercions
  of ONE real-valued network (`Cert.Net`) evaluated at the real parts of the arguments:
   • the reference, operation by operation (`RefValue`), through its generated run and read-at-an-index lemmas;
   • the kernel's stored payloads at a block's row (`KerPay`), and from blocks to whole arrays and through the two
     row-0 slices after the region (`KernelRun`, `KerValue`), over the generated frame;
   • finiteness of the arguments out of the precondition (`FiniteArgs`).
  The three frame claims are the generated frames (the reference's is its generated run with the results dropped),
  and the idealization rewrote nothing, so `preserves` is trivial.
-/
import proofs.«150447_j79370995630372_2_alg».proof.Defs
import proofs.«150447_j79370995630372_2_alg».proof.Proof.Gen.Kernel
import proofs.«150447_j79370995630372_2_alg».proof.Proof.Gen.Kernel.Skeleton
import proofs.«150447_j79370995630372_2_alg».proof.Proof.Gen.Kernel.Launch
import proofs.«150447_j79370995630372_2_alg».proof.Proof.Gen.Kernel.Points
import proofs.«150447_j79370995630372_2_alg».proof.Proof.Gen.Kernel.Frame
import proofs.«150447_j79370995630372_2_alg».proof.Proof.Gen.KernelIdeal
import proofs.«150447_j79370995630372_2_alg».proof.Proof.Gen.KernelIdeal.Skeleton
import proofs.«150447_j79370995630372_2_alg».proof.Proof.Gen.KernelIdeal.Launch
import proofs.«150447_j79370995630372_2_alg».proof.Proof.Gen.KernelIdeal.Points
import proofs.«150447_j79370995630372_2_alg».proof.Proof.Gen.KernelIdeal.Frame
import proofs.«150447_j79370995630372_2_alg».proof.Proof.Gen.ReferenceIdeal
import proofs.«150447_j79370995630372_2_alg».proof.Proof.Gen.ReferenceIdeal.Run
import proofs.«150447_j79370995630372_2_alg».proof.Proof.Gen.ReferenceIdeal.Read
import proofs.«150447_j79370995630372_2_alg».proof.Proof.Gen.Pre_finite_inputs
import proofs.«150447_j79370995630372_2_alg».proof.Proof.FiniteArgs
import proofs.«150447_j79370995630372_2_alg».proof.Proof.RefValue
import proofs.«150447_j79370995630372_2_alg».proof.Proof.KerValue
import Idealize.ShloMosaic.Adequacy
import Idealize.ShloMosaic.Init

noncomputable section

namespace Cert.Proof

open Idealize.ShloMosaic Idealize.SL.Sem Idealize.ShloMosaic.ValueIdx Cert.Net Cert.Reals

/-! ## The frames -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-! ## The value claim -/

/-- The reference's arguments, being the kernel's, hold the same real numbers. -/
theorem refReads (m : (ℓ : Loc Cert.KernelIdeal.nD Cert.KernelIdeal.τ Cert.KernelIdeal.sig) → Buf (Elt Ideal) ℓ)
    (c : Dev Cert.KernelIdeal.nD) (hf : Cert.KernelIdeal.Whole.RealArgs m c) :
    Cert.ReferenceIdeal.RefValue.Reads (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (Cert.KernelIdeal.Whole.X m c) (Cert.KernelIdeal.Whole.P m c) where
  h0 r := eq_coe_toReal (hf.1 _)
  h1 j := eq_coe_toReal (hf.2.1 _)
  h2 j := eq_coe_toReal (hf.2.2.1 _)
  h3 k j := eq_coe_toReal (hf.2.2.2.1 _)
  h4 j := eq_coe_toReal (hf.2.2.2.2.1 _)
  h5 k j := eq_coe_toReal (hf.2.2.2.2.2.1 _)
  h6 j := eq_coe_toReal (hf.2.2.2.2.2.2.1 _)
  h7 k := eq_coe_toReal (hf.2.2.2.2.2.2.2.1 _)
  h8 := eq_coe_toReal (hf.2.2.2.2.2.2.2.2 _)

/-- From finite arguments both programs end with the real network's value at row 0, its first derivative at row 0 and
    its second derivative at every row, read at the real parts of the (shared) arguments. -/
theorem algebraic : Cert.algebraic_KernelIdeal_ReferenceIdeal := by
  intro m ρ m' ρ' hpre hagree
  have hf : ∀ c, Cert.KernelIdeal.Whole.RealArgs m c := fun c => Cert.FiniteArgs.of_pre _ _ _ _ _ _ _ _ _ (hpre c)
  refine ⟨_, _, _, Cert.KernelIdeal.RunValue.run m ρ (Cert.KernelIdeal.Whole.Gy m) (Cert.KernelIdeal.Whole.Gdy m)
    (Cert.KernelIdeal.Whole.Gddy m) (Cert.KernelIdeal.Whole.flushed9_eq m hf) (Cert.KernelIdeal.Whole.flushed10_eq m hf)
    (Cert.KernelIdeal.Whole.flushed11_eq m hf), ?_⟩
  refine (θ_run Cert.ReferenceIdeal.defs _ _).mono (fun _ h c => ?_) (Cert.ReferenceIdeal.Value.run (F := Ideal) m' ρ')
  obtain ⟨a0, a1, a2, a3, a4, a5, a6, a7, a8⟩ := hagree c
  have H := refReads m c (hf c)
  refine ⟨(h c).1.trans ?_, (h c).2.1.trans ?_, (h c).2.2.1.trans ?_, (h c).2.2.2⟩
  · rw [a0, a1, a2, a3, a4, a5, a6, a7, a8]
    exact Cert.ReferenceIdeal.RefValue.res83 H
  · rw [Cert.ReferenceIdeal.Read.val_main_v85_eq, a0, a1, a2, a3, a4, a5, a6, a7]
    exact Cert.ReferenceIdeal.RefValue.res85 H
  · rw [Cert.ReferenceIdeal.Read.val_main_v78_eq, a0, a1, a2, a3, a4, a5, a6, a7]
    exact Cert.ReferenceIdeal.RefValue.res78 H

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
